-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S2048x1024, .bf16⟩
  | .local _ .vmem, ⟨11, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2048x1024_S256x1024_0_0 : ∀ a, (![0, 0] : Fin 2 → Nat) a + S256x1024.size a ≤ S2048x1024.size a
  h_S256x1024 : 0 < S256x1024.numel
  shapeCasts_S256x1024_S256x1024 : S256x1024.ShapeCasts S256x1024
  packedbf16_S2048x1024_S256x1024_0_0 : (Rect.unit (s := S2048x1024) ![0, 0] S256x1024.size inb_S2048x1024_S256x1024_0_0).PackedRows (EltTy.packing .bf16)
  inb_S1x2048x1024_S1x256x1024_0_256_0 : ∀ a, (![0, 256, 0] : Fin 3 → Nat) a + S1x256x1024.size a ≤ S1x2048x1024.size a
  inb_S2048x1024_S256x1024_256_0 : ∀ a, (![256, 0] : Fin 2 → Nat) a + S256x1024.size a ≤ S2048x1024.size a
  packedbf16_S2048x1024_S256x1024_256_0 : (Rect.unit (s := S2048x1024) ![256, 0] S256x1024.size inb_S2048x1024_S256x1024_256_0).PackedRows (EltTy.packing .bf16)
  inb_S1x2048x1024_S1x256x1024_0_512_0 : ∀ a, (![0, 512, 0] : Fin 3 → Nat) a + S1x256x1024.size a ≤ S1x2048x1024.size a
  inb_S2048x1024_S256x1024_512_0 : ∀ a, (![512, 0] : Fin 2 → Nat) a + S256x1024.size a ≤ S2048x1024.size a
  packedbf16_S2048x1024_S256x1024_512_0 : (Rect.unit (s := S2048x1024) ![512, 0] S256x1024.size inb_S2048x1024_S256x1024_512_0).PackedRows (EltTy.packing .bf16)
  inb_S1x2048x1024_S1x256x1024_0_768_0 : ∀ a, (![0, 768, 0] : Fin 3 → Nat) a + S1x256x1024.size a ≤ S1x2048x1024.size a
  inb_S2048x1024_S256x1024_768_0 : ∀ a, (![768, 0] : Fin 2 → Nat) a + S256x1024.size a ≤ S2048x1024.size a
  packedbf16_S2048x1024_S256x1024_768_0 : (Rect.unit (s := S2048x1024) ![768, 0] S256x1024.size inb_S2048x1024_S256x1024_768_0).PackedRows (EltTy.packing .bf16)
  inb_S1x2048x1024_S1x256x1024_0_1024_0 : ∀ a, (![0, 1024, 0] : Fin 3 → Nat) a + S1x256x1024.size a ≤ S1x2048x1024.size a
  inb_S2048x1024_S256x1024_1024_0 : ∀ a, (![1024, 0] : Fin 2 → Nat) a + S256x1024.size a ≤ S2048x1024.size a
  packedbf16_S2048x1024_S256x1024_1024_0 : (Rect.unit (s := S2048x1024) ![1024, 0] S256x1024.size inb_S2048x1024_S256x1024_1024_0).PackedRows (EltTy.packing .bf16)
  inb_S1x2048x1024_S1x256x1024_0_1280_0 : ∀ a, (![0, 1280, 0] : Fin 3 → Nat) a + S1x256x1024.size a ≤ S1x2048x1024.size a
  inb_S2048x1024_S256x1024_1280_0 : ∀ a, (![1280, 0] : Fin 2 → Nat) a + S256x1024.size a ≤ S2048x1024.size a
  packedbf16_S2048x1024_S256x1024_1280_0 : (Rect.unit (s := S2048x1024) ![1280, 0] S256x1024.size inb_S2048x1024_S256x1024_1280_0).PackedRows (EltTy.packing .bf16)
  inb_S1x2048x1024_S1x256x1024_0_1536_0 : ∀ a, (![0, 1536, 0] : Fin 3 → Nat) a + S1x256x1024.size a ≤ S1x2048x1024.size a
  inb_S2048x1024_S256x1024_1536_0 : ∀ a, (![1536, 0] : Fin 2 → Nat) a + S256x1024.size a ≤ S2048x1024.size a
  packedbf16_S2048x1024_S256x1024_1536_0 : (Rect.unit (s := S2048x1024) ![1536, 0] S256x1024.size inb_S2048x1024_S256x1024_1536_0).PackedRows (EltTy.packing .bf16)
  inb_S1x2048x1024_S1x256x1024_0_1792_0 : ∀ a, (![0, 1792, 0] : Fin 3 → Nat) a + S1x256x1024.size a ≤ S1x2048x1024.size a
  inb_S2048x1024_S256x1024_1792_0 : ∀ a, (![1792, 0] : Fin 2 → Nat) a + S256x1024.size a ≤ S2048x1024.size a
  packedbf16_S2048x1024_S256x1024_1792_0 : (Rect.unit (s := S2048x1024) ![1792, 0] S256x1024.size inb_S2048x1024_S256x1024_1792_0).PackedRows (EltTy.packing .bf16)
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x2048x1024.size a
  hwx0_7 : ∀ i : grid0.Coords, EltTy.bits .f32 = 32 ∨ (Rect.block (s := S8x2048x1024) S1x256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The specification: one row of single-head attention on the extended reals, in the two arrangements the two
  programs compute, and the law that joins them.

  For a query row `q`, keys `K`, values `V` and a scale `c`:
    s k   = (∑ e, q e · K k e) · c                      the scores of the row
    M     = max over k of s k  (from −∞)                the row's maximum
    p k   = exp (s k − M)                               the unnormalised weights
    kernel arrangement     (∑ k, p k · V k d) / (∑ k, p k)
    reference arrangement   ∑ k, (p k / ∑ k', p k') · V k d
  The two differ by moving a division across a sum. On the extended reals that is not a law in general (it fails at
  the infinities), but it holds when the scores and values are real: then M is real, each p k is a positive real,
  their sum L is a positive real, and both sides are the real number (∑ k, p k · V k d) / L.
  The rows themselves are affine images `x ↦ x · Wᵀ + b` of the input rows; real inputs give real rows.
-/
import Idealize.ShloMosaic.PureOps.Ideal
import Idealize.ShloMosaic.Lib.ValueIdx

noncomputable section

open scoped BigOperators

namespace Cert.Attn.Spec

open Idealize.ShloMosaic Idealize.ShloMosaic.ValueIdx

variable {κ δ ε : Type} [Fintype κ] [Fintype δ] [Fintype ε]

/-- One row of a linear layer: `(x · Wᵀ + b) e = ∑ d, x d · W e d + b e`. -/
def lin (W : ε → δ → EReal) (b : ε → EReal) (x : δ → EReal) (e : ε) : EReal := (∑ d, x d * W e d) + b e

/-- The scaled scores of a query row against every key row. -/
def scores (q : ε → EReal) (K : κ → ε → EReal) (c : EReal) (k : κ) : EReal := (∑ e, q e * K k e) * c

/-- The maximum of a row of scores, taken from −∞. -/
def rowMax (s : κ → EReal) : EReal := Finset.univ.fold max ⊥ s

/-- The unnormalised softmax weights of a row of scores. -/
def pexp (s : κ → EReal) (k : κ) : EReal := Ideal.exp (s k - rowMax s)

/-- The kernel's arrangement: weigh the values, sum, then divide by the weights' sum. -/
def outK (s : κ → EReal) (V : κ → ε → EReal) (d : ε) : EReal := Ideal.div (∑ k, pexp s k * V k d) (∑ k, pexp s k)

/-- The reference's arrangement: normalise each weight, then weigh the values and sum. -/
def outR (s : κ → EReal) (V : κ → ε → EReal) (d : ε) : EReal :=
  ∑ k, Ideal.div (pexp s k) (∑ k', pexp s k') * V k d

/-- A finite sum of reals, embedded term by term, is the embedded sum. -/
theorem coe_sum (t : Finset κ) (f : κ → ℝ) : ∑ k ∈ t, (f k : EReal) = ((∑ k ∈ t, f k : ℝ) : EReal) := by
  classical
  refine Finset.induction_on t ?_ ?_
  · simp
  · intro a s ha ih
    rw [Finset.sum_insert ha, Finset.sum_insert ha, ih, EReal.coe_add]

/-- A linear layer maps real data to a real row. -/
theorem lin_coe (W' : ε → δ → ℝ) (b' : ε → ℝ) (x' : δ → ℝ) (e : ε) :
    lin (fun e d => (W' e d : EReal)) (fun e => (b' e : EReal)) (fun d => (x' d : EReal)) e
      = (((∑ d, x' d * W' e d) + b' e : ℝ) : EReal) := by
  unfold lin
  simp only [← EReal.coe_mul]
  rw [coe_sum, ← EReal.coe_add]

/-- Real rows and a real scale give real scores. -/
theorem scores_coe (q' : ε → ℝ) (K' : κ → ε → ℝ) (c' : ℝ) (k : κ) :
    scores (fun e => (q' e : EReal)) (fun k e => (K' k e : EReal)) (c' : EReal) k
      = (((∑ e, q' e * K' k e) * c' : ℝ) : EReal) := by
  unfold scores
  simp only [← EReal.coe_mul]
  rw [coe_sum, ← EReal.coe_mul]

/-- The maximum, from −∞, of a nonempty finite family of reals is a real. -/
theorem fold_max_coe (t : Finset κ) (ht : t.Nonempty) (s' : κ → ℝ) :
    ∃ M : ℝ, t.fold max (⊥ : EReal) (fun k => (s' k : EReal)) = M := by
  induction ht using Finset.Nonempty.cons_induction with
  | singleton a => exact ⟨s' a, by rw [Finset.fold_singleton]; exact max_bot_right _⟩
  | cons a t ha _ ih =>
    obtain ⟨M, hM⟩ := ih
    exact ⟨max (s' a) M, by rw [Finset.fold_cons, hM]; exact (EReal.coe_strictMono.monotone.map_max).symm⟩

theorem rowMax_coe [Nonempty κ] (s' : κ → ℝ) : ∃ M : ℝ, rowMax (fun k => (s' k : EReal)) = M :=
  fold_max_coe Finset.univ Finset.univ_nonempty s'

/-- THE LAW. For real scores and real values the two arrangements agree: both are `(∑ k, p k · V k d) / L`
    with `L = ∑ k, p k > 0`. -/
theorem outK_eq_outR [Nonempty κ] (s' : κ → ℝ) (V' : κ → ε → ℝ) (d : ε) :
    outK (fun k => (s' k : EReal)) (fun k d => (V' k d : EReal)) d
      = outR (fun k => (s' k : EReal)) (fun k d => (V' k d : EReal)) d := by
  obtain ⟨M, hM⟩ := rowMax_coe s'
  have hp : ∀ k, pexp (fun k => (s' k : EReal)) k = ((Real.exp (s' k - M) : ℝ) : EReal) := by
    intro k
    unfold pexp
    rw [hM, ← EReal.coe_sub]
    rfl
  have hLpos : 0 < ∑ k, Real.exp (s' k - M) :=
    Finset.sum_pos (fun k _ => Real.exp_pos _) Finset.univ_nonempty
  unfold outK outR
  simp only [hp]
  rw [coe_sum Finset.univ (fun k => Real.exp (s' k - M))]
  simp only [Ideal.div_coe hLpos.ne', ← EReal.coe_mul]
  rw [coe_sum, coe_sum, ← EReal.coe_mul]
  congr 1
  rw [Finset.sum_mul]
  exact Finset.sum_congr rfl fun k _ => by ring

/-- The scale both programs use, as an extended real: 1/32. -/
abbrev c32 : EReal := ((1 / 32 : ℝ) : EReal)

section Arrays

/-- The arrays' index types, with literal extents. -/
abbrev IX : Type := (⟨3, ![8, 2048, 1024]⟩ : Shape).Idx
abbrev IW : Type := (⟨2, ![1024, 1024]⟩ : Shape).Idx
abbrev IB : Type := (⟨1, ![1024]⟩ : Shape).Idx

/-- Row `r` of batch `b` of the input, as a function of the feature. -/
abbrev xrow (x : IX → EReal) (b : Fin 8) (r : Fin 2048) : Fin 1024 → EReal := fun d => x (ix3 b r d)
/-- A weight matrix `W[e, d]` and a bias `b[e]` by coordinates. -/
abbrev wmat (w : IW → EReal) : Fin 1024 → Fin 1024 → EReal := fun e d => w (ix2 e d)
abbrev bvec (b : IB → EReal) : Fin 1024 → EReal := fun e => b (ix1 e)

/-- The scores of query row `r` of batch `b` against all 2048 key rows of the batch. -/
def attnScores (x : IX → EReal) (wq : IW → EReal) (bq : IB → EReal) (wk : IW → EReal) (bk : IB → EReal)
    (b : Fin 8) (r : Fin 2048) : Fin 2048 → EReal :=
  scores (lin (wmat wq) (bvec bq) (xrow x b r)) (fun k => lin (wmat wk) (bvec bk) (xrow x b k)) c32

/-- The value rows of batch `b`. -/
def attnValues (x : IX → EReal) (wv : IW → EReal) (bv : IB → EReal) (b : Fin 8) : Fin 2048 → Fin 1024 → EReal :=
  fun k => lin (wmat wv) (bvec bv) (xrow x b k)

/-- The attention output at `(b, r, d)` in the kernel's arrangement. -/
def attnK (x : IX → EReal) (wq : IW → EReal) (bq : IB → EReal) (wk : IW → EReal) (bk : IB → EReal)
    (wv : IW → EReal) (bv : IB → EReal) (b : Fin 8) (r : Fin 2048) (d : Fin 1024) : EReal :=
  outK (attnScores x wq bq wk bk b r) (attnValues x wv bv b) d

/-- The attention output at `(b, r, d)` in the reference's arrangement. -/
def attnR (x : IX → EReal) (wq : IW → EReal) (bq : IB → EReal) (wk : IW → EReal) (bk : IB → EReal)
    (wv : IW → EReal) (bv : IB → EReal) (b : Fin 8) (r : Fin 2048) (d : Fin 1024) : EReal :=
  outR (attnScores x wq bq wk bk b r) (attnValues x wv bv b) d

/-- For real inputs the two arrangements are the same function. -/
theorem attnR_eq_attnK (x' : IX → ℝ) (wq' : IW → ℝ) (bq' : IB → ℝ) (wk' : IW → ℝ) (bk' : IB → ℝ)
    (wv' : IW → ℝ) (bv' : IB → ℝ) (b : Fin 8) (r : Fin 2048) (d : Fin 1024) :
    attnR (fun i => (x' i : EReal)) (fun i => (wq' i : EReal)) (fun i => (bq' i : EReal)) (fun i => (wk' i : EReal))
        (fun i => (bk' i : EReal)) (fun i => (wv' i : EReal)) (fun i => (bv' i : EReal)) b r d
      = attnK (fun i => (x' i : EReal)) (fun i => (wq' i : EReal)) (fun i => (bq' i : EReal)) (fun i => (wk' i : EReal))
        (fun i => (bk' i : EReal)) (fun i => (wv' i : EReal)) (fun i => (bv' i : EReal)) b r d := by
  unfold attnR attnK attnScores attnValues
  have hq := fun e => lin_coe (fun e d => wq' (ix2 e d)) (fun e => bq' (ix1 e)) (fun d => x' (ix3 b r d)) e
  have hk := fun k e => lin_coe (fun e d => wk' (ix2 e d)) (fun e => bk' (ix1 e)) (fun d => x' (ix3 b k d)) e
  have hv := fun k e => lin_coe (fun e d => wv' (ix2 e d)) (fun e => bv' (ix1 e)) (fun d => x' (ix3 b k d)) e
  have hs := fun k => scores_coe (fun e => (∑ d, x' (ix3 b r d) * wq' (ix2 e d)) + bq' (ix1 e))
    (fun k e => (∑ d, x' (ix3 b k d) * wk' (ix2 e d)) + bk' (ix1 e)) (1 / 32) k
  have e1 : (lin (wmat fun i => (wq' i : EReal)) (bvec fun i => (bq' i : EReal)) (xrow (fun i => (x' i : EReal)) b r))
      = fun e => ((((∑ d, x' (ix3 b r d) * wq' (ix2 e d)) + bq' (ix1 e) : ℝ)) : EReal) := funext hq
  have e2 : (fun k => lin (wmat fun i => (wk' i : EReal)) (bvec fun i => (bk' i : EReal)) (xrow (fun i => (x' i : EReal)) b k))
      = fun k e => ((((∑ d, x' (ix3 b k d) * wk' (ix2 e d)) + bk' (ix1 e) : ℝ)) : EReal) := funext fun k => funext (hk k)
  have e3 : (fun k => lin (wmat fun i => (wv' i : EReal)) (bvec fun i => (bv' i : EReal)) (xrow (fun i => (x' i : EReal)) b k))
      = fun k e => ((((∑ d, x' (ix3 b k d) * wv' (ix2 e d)) + bv' (ix1 e) : ℝ)) : EReal) := funext fun k => funext (hv k)
  rw [e1, e2, e3]
  have e4 : scores (fun e => ((((∑ d, x' (ix3 b r d) * wq' (ix2 e d)) + bq' (ix1 e) : ℝ)) : EReal))
      (fun k e => ((((∑ d, x' (ix3 b k d) * wk' (ix2 e d)) + bk' (ix1 e) : ℝ)) : EReal)) c32
      = fun k => ((((∑ e, ((∑ d, x' (ix3 b r d) * wq' (ix2 e d)) + bq' (ix1 e)) * ((∑ d, x' (ix3 b k d) * wk' (ix2 e d)) + bk' (ix1 e))) * (1 / 32) : ℝ)) : EReal) :=
    funext hs
  rw [e4]
  exact (outK_eq_outR _ _ d).symm

end Arrays

end Cert.Attn.Spec

end
-- ==== Proof.Consts.lean ====
/-
  The float literals the two programs spell, as the extended reals their bit patterns denote.
  The kernel scales the scores by the literal 2⁻⁵; the reference by 1 / √1024. Since 1024 = 32², the two
  scales are the same real number 1/32 (`scale_eq`).
-/
import Idealize.ShloMosaic.PureOps.Ideal

noncomputable section

namespace Cert.Attn.Consts

open Idealize.ShloMosaic

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `1.0` denotes 1. -/
theorem ofBits_one : Ideal.ofBits .f32 0x3F800000#32 = ((1 : ℝ) : EReal) := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

/-- The word of `-inf` denotes the bottom element. -/
theorem ofBits_neg_inf : Ideal.ofBits .f32 0xFF800000#32 = ⊥ := by
  simp [Ideal.ofBits, Ideal.ieee]

/-- √1024 = 32. -/
theorem sqrt_1024 : Real.sqrt 1024 = 32 := by
  rw [show (1024 : ℝ) = 32 ^ 2 by norm_num]
  exact Real.sqrt_sq (by norm_num)

/-- The reference's scale `1 / √1024`, computed on the extended reals, is the real 1/32. -/
theorem scale_eq : Ideal.div ((1 : ℝ) : EReal) (Ideal.sqrt ((1024 : ℝ) : EReal)) = ((1 / 32 : ℝ) : EReal) := by
  rw [Ideal.sqrt_coe, if_neg (by norm_num), sqrt_1024, Ideal.div_coe (by norm_num : (32 : ℝ) ≠ 0)]
  rw [← EReal.coe_mul]; norm_num

end Cert.Attn.Consts

end
-- ==== Proof.RefValue.lean ====
/-
  The reference program's result, read at an index, is the reference arrangement of attention.

  The reference computes q, k, v = x · Wᵀ + b for the whole batch, the scores q · kᵀ scaled by 1 / √1024, a softmax along
  the key axis (maximum from −∞, exponentials, their sum, each weight divided by the sum) and the weighted sum of the
  value rows. Stage by stage, at an index:
    q, k, v (b, r, e)   = ∑ d, x (b, r, d) · W (e, d) + bias e
    scale               = 1 / √1024 = 1/32                       (1024 = 32²)
    scores (b, r, k)    = (∑ e, q (b, r, e) · k (b, k, e)) · 1/32
    max (b, r)          = max (−∞, fold of max over k)            (the outer max with −∞ changes nothing)
    result (b, r, d)    = ∑ k, (p k / (0 + ∑ k', p k')) · v (b, k, d)
-/
import proofs.«128376_j70617852281155_2_alg».proof.Proof.Gen.ReferenceIdeal.Read
import proofs.«128376_j70617852281155_2_alg».proof.Proof.Spec
import proofs.«128376_j70617852281155_2_alg».proof.Proof.Consts
import Idealize.ShloMosaic.Lib.ValueIdx
import Idealize.ShloMosaic.PureOps.Ideal.Laws

noncomputable section

open scoped BigOperators

namespace Cert.Attn.RefValue

open Idealize.ShloMosaic Idealize.ShloMosaic.ValueIdx Cert.ReferenceIdeal Cert.ReferenceIdeal.Gen Cert.ReferenceIdeal.Read
open Cert.Attn.Spec

variable (x0 : (⟨S8x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The operand indices of the three projections, by coordinates. -/
theorem lidx_proj (b : Fin 8) (r : Fin 2048) (e d : Fin 1024) : lidx_main_v0 (ix3 b r e) d = ix3 b r d :=
  funext fun a => match a with | ⟨0, _⟩ => rfl | ⟨1, _⟩ => rfl | ⟨2, _⟩ => rfl
theorem ridx_proj (b : Fin 8) (r : Fin 2048) (e d : Fin 1024) : ridx_main_v0 (ix3 b r e) d = ix2 e d :=
  funext fun a => match a with | ⟨0, _⟩ => rfl | ⟨1, _⟩ => rfl
theorem bias_idx (b : Fin 8) (r : Fin 2048) (e : Fin 1024) : idx_main_v1 (idx_main_v2 (ix3 b r e)) = ix1 e :=
  funext fun a => match a with | ⟨0, _⟩ => rfl

/-- The query rows. -/
theorem q_apply (b : Fin 8) (r : Fin 2048) (e : Fin 1024) :
    val_main_v3 (F := Ideal) x0 x1 x2 (ix3 b r e) = lin (wmat x1) (bvec x2) (xrow x0 b r) e := by
  rw [val_main_v3_apply, val_main_v0_apply, val_main_v2_apply, val_main_v1_apply]
  unfold lin
  show (∑ k : Fin 1024, x0 (lidx_main_v0 (ix3 b r e) k) * x1 (ridx_main_v0 (ix3 b r e) k)) + x2 (idx_main_v1 (idx_main_v2 (ix3 b r e))) = _
  rw [bias_idx]
  refine congrArg (· + x2 (ix1 e)) (Finset.sum_congr rfl fun d _ => ?_)
  rw [lidx_proj, ridx_proj]

/-- The key rows: the same text over the key weights. -/
theorem k_apply (b : Fin 8) (r : Fin 2048) (e : Fin 1024) :
    val_main_v7 (F := Ideal) x0 x3 x4 (ix3 b r e) = lin (wmat x3) (bvec x4) (xrow x0 b r) e := by
  rw [val_main_v7_apply, val_main_v4_apply, val_main_v6_apply, val_main_v5_apply]
  unfold lin
  show (∑ k : Fin 1024, x0 (lidx_main_v4 (ix3 b r e) k) * x3 (ridx_main_v4 (ix3 b r e) k)) + x4 (idx_main_v5 (idx_main_v6 (ix3 b r e))) = _
  refine congrArg₂ (· + ·) (Finset.sum_congr rfl fun d _ => ?_) ?_
  · exact congrArg₂ (· * ·) (congrArg x0 (funext fun a => match a with | ⟨0, _⟩ => rfl | ⟨1, _⟩ => rfl | ⟨2, _⟩ => rfl))
      (congrArg x3 (funext fun a => match a with | ⟨0, _⟩ => rfl | ⟨1, _⟩ => rfl))
  · exact congrArg x4 (funext fun a => match a with | ⟨0, _⟩ => rfl)

/-- The value rows: the same text over the value weights. -/
theorem v_apply (b : Fin 8) (r : Fin 2048) (e : Fin 1024) :
    val_main_v11 (F := Ideal) x0 x5 x6 (ix3 b r e) = lin (wmat x5) (bvec x6) (xrow x0 b r) e := by
  rw [val_main_v11_apply, val_main_v8_apply, val_main_v10_apply, val_main_v9_apply]
  unfold lin
  show (∑ k : Fin 1024, x0 (lidx_main_v8 (ix3 b r e) k) * x5 (ridx_main_v8 (ix3 b r e) k)) + x6 (idx_main_v9 (idx_main_v10 (ix3 b r e))) = _
  refine congrArg₂ (· + ·) (Finset.sum_congr rfl fun d _ => ?_) ?_
  · exact congrArg₂ (· * ·) (congrArg x0 (funext fun a => match a with | ⟨0, _⟩ => rfl | ⟨1, _⟩ => rfl | ⟨2, _⟩ => rfl))
      (congrArg x5 (funext fun a => match a with | ⟨0, _⟩ => rfl | ⟨1, _⟩ => rfl))
  · exact congrArg x6 (funext fun a => match a with | ⟨0, _⟩ => rfl)

/-- The scale the reference computes, `1 / √1024`, is 1/32 at every index it is broadcast to. -/
theorem scale_apply (i : S8x2048x2048.Idx) : val_main_v15 (F := Ideal) i = c32 := by
  rw [val_main_v15_apply, val_main_v13_apply, val_main_cst_0_apply, val_main_v12_apply, val_main_cst_apply]
  show Ideal.div (Ideal.ofBits .f32 0x3F800000#32) (Ideal.sqrt (Ideal.ofBits .f32 0x44800000#32)) = _
  rw [Cert.Attn.Consts.ofBits_one, Cert.Attn.Consts.ofBits_1024]
  exact Cert.Attn.Consts.scale_eq

/-- The scaled scores. -/
theorem scores_apply (b : Fin 8) (r k : Fin 2048) :
    val_main_v16 (F := Ideal) x0 x1 x2 x3 x4 (ix3 b r k) = attnScores x0 x1 x2 x3 x4 b r k := by
  rw [val_main_v16_apply, val_main_v14_apply, scale_apply]
  unfold attnScores scores
  show (∑ e : Fin 1024, val_main_v3 (F := Ideal) x0 x1 x2 (lidx_main_v14 (ix3 b r k) e) * val_main_v7 (F := Ideal) x0 x3 x4 (ridx_main_v14 (ix3 b r k) e)) * c32 = _
  refine congrArg (· * c32) (Finset.sum_congr rfl fun e _ => ?_)
  have hl : lidx_main_v14 (ix3 b r k) e = ix3 b r e := funext fun a => match a with | ⟨0, _⟩ => rfl | ⟨1, _⟩ => rfl | ⟨2, _⟩ => rfl
  have hr : ridx_main_v14 (ix3 b r k) e = ix3 b k e := funext fun a => match a with | ⟨0, _⟩ => rfl | ⟨1, _⟩ => rfl | ⟨2, _⟩ => rfl
  rw [hl, hr, q_apply, k_apply]

/-- Reducing the key axis of [8,2048,2048] leaves [8,2048]. -/
theorem reduces_keys : S8x2048x2048.Reduces [2] S8x2048 := by decide

/-- The host's reduce with a maximum body over the key axis, from −∞: the fold of max over the 2048 keys. -/
theorem host_rowmax (y : FVec Ideal S8x2048x2048 .f32) (b : Fin 8) (r : Fin 2048) :
    Host.reduce FloatOps.maximumf y (constant (F := Ideal) S_ .f32 0xFF800000#32) reducesTo_S8x2048x2048_S8x2048_d2 h_S_ (ix2 b r)
      = rowMax (fun k : Fin 2048 => y (ix3 b r k)) := by
  rw [Host.reduce_eq_fold_single FloatOps.maximumf y _ reducesTo_S8x2048x2048_S8x2048_d2 reduces_keys h_S_]
  unfold rowMax
  show (Finset.univ : Finset (Fin 2048)).fold max (Ideal.ofBits .f32 0xFF800000#32) _ = _
  rw [Cert.Attn.Consts.ofBits_neg_inf]
  congr 1
  funext k
  exact congrArg y (funext fun a => Fin.ext (by match a with | ⟨0, _⟩ => rfl | ⟨1, _⟩ => rfl | ⟨2, _⟩ => rfl))

/-- The row maximum: the host's reduce is the fold of max from −∞ over the key axis, and the further max with −∞ is idle. -/
theorem max_apply (b : Fin 8) (r : Fin 2048) :
    val_main_v19 (F := Ideal) x0 x1 x2 x3 x4 (ix2 b r) = rowMax (attnScores x0 x1 x2 x3 x4 b r) := by
  rw [val_main_v19_apply, val_main_v18_apply, val_main_cst_2_apply]
  show max (Ideal.ofBits .f32 0xFF800000#32) (val_main_v17 (F := Ideal) x0 x1 x2 x3 x4 (ix2 b r)) = _
  rw [Cert.Attn.Consts.ofBits_neg_inf, max_bot_left]
  unfold val_main_v17 val_main_cst_1
  rw [host_rowmax]
  congr 1
  funext k
  exact scores_apply x0 x1 x2 x3 x4 b r k

/-- The unnormalised weights. -/
theorem exp_apply (b : Fin 8) (r k : Fin 2048) :
    val_main_v23 (F := Ideal) x0 x1 x2 x3 x4 (ix3 b r k) = pexp (attnScores x0 x1 x2 x3 x4 b r) k := by
  rw [val_main_v23_apply, val_main_v22_apply, val_main_v21_apply, val_main_v20_apply, scores_apply]
  unfold pexp
  show Ideal.exp (attnScores x0 x1 x2 x3 x4 b r k - val_main_v19 (F := Ideal) x0 x1 x2 x3 x4 (idx_main_v20 (idx_main_v21 (ix3 b r k)))) = _
  have hi : idx_main_v20 (idx_main_v21 (ix3 b r k)) = ix2 b r := funext fun a => match a with | ⟨0, _⟩ => rfl | ⟨1, _⟩ => rfl
  rw [hi, max_apply]

/-- The weights' sum (from the literal zero). -/
theorem sum_apply (b : Fin 8) (r : Fin 2048) :
    val_main_v24 (F := Ideal) x0 x1 x2 x3 x4 (ix2 b r) = ∑ k : Fin 2048, pexp (attnScores x0 x1 x2 x3 x4 b r) k := by
  rw [val_main_v24_apply, val_main_cst_3_apply]
  show Ideal.ofBits .f32 0x00000000#32 + _ = _
  rw [Cert.Attn.Consts.ofBits_zero, zero_add]
  refine Finset.sum_congr rfl fun k _ => ?_
  have hi : idx_main_v24 (ix2 b r) k = ix3 b r k := funext fun a => match a with | ⟨0, _⟩ => rfl | ⟨1, _⟩ => rfl | ⟨2, _⟩ => rfl
  rw [hi, exp_apply]

/-- The normalised weights. -/
theorem softmax_apply (b : Fin 8) (r k : Fin 2048) :
    val_main_v27 (F := Ideal) x0 x1 x2 x3 x4 (ix3 b r k)
      = Ideal.div (pexp (attnScores x0 x1 x2 x3 x4 b r) k) (∑ k' : Fin 2048, pexp (attnScores x0 x1 x2 x3 x4 b r) k') := by
  rw [val_main_v27_apply, val_main_v26_apply, val_main_v25_apply, exp_apply]
  show Ideal.div _ (val_main_v24 (F := Ideal) x0 x1 x2 x3 x4 (idx_main_v25 (idx_main_v26 (ix3 b r k)))) = _
  have hi : idx_main_v25 (idx_main_v26 (ix3 b r k)) = ix2 b r := funext fun a => match a with | ⟨0, _⟩ => rfl | ⟨1, _⟩ => rfl
  rw [hi, sum_apply]

/-- THE REFERENCE'S RESULT at (b, r, d) is the reference arrangement of attention. -/
theorem result_apply (b : Fin 8) (r : Fin 2048) (d : Fin 1024) :
    val_main_v28 (F := Ideal) x0 x1 x2 x3 x4 x5 x6 (ix3 b r d) = attnR x0 x1 x2 x3 x4 x5 x6 b r d := by
  rw [val_main_v28_apply]
  unfold attnR outR attnValues
  refine Finset.sum_congr rfl fun k _ => ?_
  have hl : lidx_main_v28 (ix3 b r d) k = ix3 b r k := funext fun a => match a with | ⟨0, _⟩ => rfl | ⟨1, _⟩ => rfl | ⟨2, _⟩ => rfl
  have hr : ridx_main_v28 (ix3 b r d) k = ix3 b k d := funext fun a => match a with | ⟨0, _⟩ => rfl | ⟨1, _⟩ => rfl | ⟨2, _⟩ => rfl
  rw [hl, hr, softmax_apply, v_apply]

/-- The reference run's result array, as one function of the argument arrays. -/
theorem res_eq (m : (ℓ : Loc nD τ sig) → Buf (Elt Ideal) ℓ) (c : Dev nD) :
    Cert.ReferenceIdeal.Value.res_main_v28 m c
      = fun i => attnR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (i 0 : Fin 8) (i 1 : Fin 2048) (i 2 : Fin 1024) := by
  rw [val_main_v28_eq]
  funext i
  obtain ⟨b, r, d, rfl⟩ : ∃ (b : Fin 8) (r : Fin 2048) (d : Fin 1024), i = ix3 b r d := ⟨i 0, i 1, i 2, eq_ix3 i⟩
  exact result_apply _ _ _ _ _ _ _ b r d

end Cert.Attn.RefValue

end
-- ==== Proof.Tile.lean ====
/-
  The kernel body's arithmetic, read at an index.

  One grid point computes a 256-row tile of the output from: the tile's 256 input rows `xq`, the (transposed) query
  weights and bias, and the two 2048 × 1024 buffers `Ks`, `Vs` that hold the batch's key and value rows. The body is
  cut here into four stages, each a plain function of its operands, and each is read at an index:
    rows    (p, e) ↦ ∑ d, x (0, p, d) · w (d, e) + b (0, e)          a 256-row block through a linear layer
    sc      (p, k) ↦ (∑ e, Q (p, e) · Ks (k, e)) · 2⁻⁵                the scaled scores of row p
    weights (p, k) ↦ exp (s (p, k) − maxₖ s (p, k))                   the unnormalised softmax weights
    out     (p, d) ↦ (∑ k, P (p, k) · Vs (k, d)) / ∑ k, P (p, k)      the weighted values, divided by the weights' sum
  Changes of float format are the identity on the extended reals, and a matrix product into a zero accumulator is the
  plain sum over the contracted coordinate. The printed payload of the output store is the composition of the four
  stages, and each 256-row chunk of the key/value projection is the first stage.
-/
import proofs.«128376_j70617852281155_2_alg».proof.Proof.Gen.KernelIdeal.Skeleton
import proofs.«128376_j70617852281155_2_alg».proof.Proof.Spec
import proofs.«128376_j70617852281155_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Tile

open Idealize.ShloMosaic Idealize.ShloMosaic.ValueIdx Cert.KernelIdeal Cert.KernelIdeal.Gen Cert.Attn.Spec

/-! ## The three matrix products, each as a sum over its one contracted coordinate -/

/-- The projection's product: [256,1024] · [1024,1024]. -/
abbrev DRows := dot_S256x1024_S1024x1024_S256x1024_1_0_0_1_n_n
theorem DRows_lnc (i : S256x1024.Idx) (q : DRows.contr.Idx) : (DRows.lhsIdx i q 0).val = (i 0).val := by
  unfold DotDims.lhsIdx
  rw [dif_neg (show ¬(0 : Fin S256x1024.rank) ∈ DRows.lhsBatch by decide), dif_pos (show (0 : Fin S256x1024.rank) ∈ DRows.lhsNonContracting by decide)]
  rfl
theorem DRows_lc (i : S256x1024.Idx) (q : DRows.contr.Idx) : (DRows.lhsIdx i q 1).val = (q ⟨0, by decide⟩).val :=
  DRows.lhsIdx_val_of_single rfl i q
theorem DRows_rnc (i : S256x1024.Idx) (q : DRows.contr.Idx) : (DRows.rhsIdx i q 1).val = (i 1).val := by
  unfold DotDims.rhsIdx
  rw [dif_neg (show ¬(1 : Fin S1024x1024.rank) ∈ DRows.rhsBatch by decide), dif_pos (show (1 : Fin S1024x1024.rank) ∈ DRows.rhsNonContracting by decide)]
  rfl
theorem DRows_rc (i : S256x1024.Idx) (q : DRows.contr.Idx) : (DRows.rhsIdx i q 0).val = (q ⟨0, by decide⟩).val :=
  DRows.rhsIdx_val_of_single rfl i q

/-- [256,1024] · [1024,1024]: entry (p, e) is ∑ d, lhs (p, d) · rhs (d, e). -/
theorem mm_rows (lhs : FVec Ideal S256x1024 .bf16) (rhs : FVec Ideal S1024x1024 .bf16) (p : Fin 256) (e : Fin 1024) :
    matmul DRows none lhs rhs (constant S256x1024 .f32 0x00000000#32) (ix2 p e)
      = ∑ d : Fin 1024, lhs (ix2 p d) * rhs (ix2 d e) := by
  refine (Ideal.matmul_constant_zero_apply DRows none lhs rhs (ix2 p e)).trans ?_
  rw [← Equiv.sum_comp (contrEquiv1 DRows 1024 rfl rfl).symm]
  refine Finset.sum_congr rfl fun k _ => ?_
  have hk := contrEquiv1_symm_val DRows 1024 rfl rfl k
  have el : DRows.lhsIdx (ix2 p e) ((contrEquiv1 DRows 1024 rfl rfl).symm k) = ix2 p k := funext fun a => Fin.ext (by
    match a with
    | ⟨0, _⟩ => exact DRows_lnc _ _
    | ⟨1, _⟩ => exact (DRows_lc _ _).trans hk)
  have er : DRows.rhsIdx (ix2 p e) ((contrEquiv1 DRows 1024 rfl rfl).symm k) = ix2 k e := funext fun a => Fin.ext (by
    match a with
    | ⟨0, _⟩ => exact (DRows_rc _ _).trans hk
    | ⟨1, _⟩ => exact DRows_rnc _ _)
  rw [el, er]

/-- The scores' product: [256,1024] · [2048,1024]ᵀ. -/
abbrev DSc := dot_S256x1024_S2048x1024_S256x2048_1_1_0_0_n_n
theorem DSc_lnc (i : S256x2048.Idx) (q : DSc.contr.Idx) : (DSc.lhsIdx i q 0).val = (i 0).val := by
  unfold DotDims.lhsIdx
  rw [dif_neg (show ¬(0 : Fin S256x1024.rank) ∈ DSc.lhsBatch by decide), dif_pos (show (0 : Fin S256x1024.rank) ∈ DSc.lhsNonContracting by decide)]
  rfl
theorem DSc_lc (i : S256x2048.Idx) (q : DSc.contr.Idx) : (DSc.lhsIdx i q 1).val = (q ⟨0, by decide⟩).val :=
  DSc.lhsIdx_val_of_single rfl i q
theorem DSc_rnc (i : S256x2048.Idx) (q : DSc.contr.Idx) : (DSc.rhsIdx i q 0).val = (i 1).val := by
  unfold DotDims.rhsIdx
  rw [dif_neg (show ¬(0 : Fin S2048x1024.rank) ∈ DSc.rhsBatch by decide), dif_pos (show (0 : Fin S2048x1024.rank) ∈ DSc.rhsNonContracting by decide)]
  rfl
theorem DSc_rc (i : S256x2048.Idx) (q : DSc.contr.Idx) : (DSc.rhsIdx i q 1).val = (q ⟨0, by decide⟩).val :=
  DSc.rhsIdx_val_of_single rfl i q

/-- [256,1024] · [2048,1024]ᵀ: entry (p, k) is ∑ e, lhs (p, e) · rhs (k, e). -/
theorem mm_scores (lhs : FVec Ideal S256x1024 .bf16) (rhs : FVec Ideal S2048x1024 .bf16) (p : Fin 256) (k : Fin 2048) :
    matmul DSc none lhs rhs (constant S256x2048 .f32 0x00000000#32) (ix2 p k)
      = ∑ e : Fin 1024, lhs (ix2 p e) * rhs (ix2 k e) := by
  refine (Ideal.matmul_constant_zero_apply DSc none lhs rhs (ix2 p k)).trans ?_
  rw [← Equiv.sum_comp (contrEquiv1 DSc 1024 rfl rfl).symm]
  refine Finset.sum_congr rfl fun q _ => ?_
  have hk := contrEquiv1_symm_val DSc 1024 rfl rfl q
  have el : DSc.lhsIdx (ix2 p k) ((contrEquiv1 DSc 1024 rfl rfl).symm q) = ix2 p q := funext fun a => Fin.ext (by
    match a with
    | ⟨0, _⟩ => exact DSc_lnc _ _
    | ⟨1, _⟩ => exact (DSc_lc _ _).trans hk)
  have er : DSc.rhsIdx (ix2 p k) ((contrEquiv1 DSc 1024 rfl rfl).symm q) = ix2 k q := funext fun a => Fin.ext (by
    match a with
    | ⟨0, _⟩ => exact DSc_rnc _ _
    | ⟨1, _⟩ => exact (DSc_rc _ _).trans hk)
  rw [el, er]

/-- The values' product: [256,2048] · [2048,1024]. -/
abbrev DVal := dot_S256x2048_S2048x1024_S256x1024_1_0_0_1_n_n
theorem DVal_lnc (i : S256x1024.Idx) (q : DVal.contr.Idx) : (DVal.lhsIdx i q 0).val = (i 0).val := by
  unfold DotDims.lhsIdx
  rw [dif_neg (show ¬(0 : Fin S256x2048.rank) ∈ DVal.lhsBatch by decide), dif_pos (show (0 : Fin S256x2048.rank) ∈ DVal.lhsNonContracting by decide)]
  rfl
theorem DVal_lc (i : S256x1024.Idx) (q : DVal.contr.Idx) : (DVal.lhsIdx i q 1).val = (q ⟨0, by decide⟩).val :=
  DVal.lhsIdx_val_of_single rfl i q
theorem DVal_rnc (i : S256x1024.Idx) (q : DVal.contr.Idx) : (DVal.rhsIdx i q 1).val = (i 1).val := by
  unfold DotDims.rhsIdx
  rw [dif_neg (show ¬(1 : Fin S2048x1024.rank) ∈ DVal.rhsBatch by decide), dif_pos (show (1 : Fin S2048x1024.rank) ∈ DVal.rhsNonContracting by decide)]
  rfl
theorem DVal_rc (i : S256x1024.Idx) (q : DVal.contr.Idx) : (DVal.rhsIdx i q 0).val = (q ⟨0, by decide⟩).val :=
  DVal.rhsIdx_val_of_single rfl i q

/-- [256,2048] · [2048,1024]: entry (p, d) is ∑ k, lhs (p, k) · rhs (k, d). -/
theorem mm_values (lhs : FVec Ideal S256x2048 .bf16) (rhs : FVec Ideal S2048x1024 .bf16) (p : Fin 256) (d : Fin 1024) :
    matmul DVal none lhs rhs (constant S256x1024 .f32 0x00000000#32) (ix2 p d)
      = ∑ k : Fin 2048, lhs (ix2 p k) * rhs (ix2 k d) := by
  refine (Ideal.matmul_constant_zero_apply DVal none lhs rhs (ix2 p d)).trans ?_
  rw [← Equiv.sum_comp (contrEquiv1 DVal 2048 rfl rfl).symm]
  refine Finset.sum_congr rfl fun q _ => ?_
  have hk := contrEquiv1_symm_val DVal 2048 rfl rfl q
  have el : DVal.lhsIdx (ix2 p d) ((contrEquiv1 DVal 2048 rfl rfl).symm q) = ix2 p q := funext fun a => Fin.ext (by
    match a with
    | ⟨0, _⟩ => exact DVal_lnc _ _
    | ⟨1, _⟩ => exact (DVal_lc _ _).trans hk)
  have er : DVal.rhsIdx (ix2 p d) ((contrEquiv1 DVal 2048 rfl rfl).symm q) = ix2 q d := funext fun a => Fin.ext (by
    match a with
    | ⟨0, _⟩ => exact (DVal_rc _ _).trans hk
    | ⟨1, _⟩ => exact DVal_rnc _ _)
  rw [el, er]

/-! ## The two row reductions and the column forms around them -/

/-- The maximum over a row's 2048 lanes, from −∞. -/
theorem lane_max (v : FVec Ideal S256x2048 .f32) (p : Fin 256) :
    multiReduction .maximumf [1] S256 v 0xFF800000#32 reduces_S256x2048_S256 (.inl rfl) rfl (ix1 p)
      = rowMax (fun k : Fin 2048 => v (ix2 p k)) := by
  refine (Ideal.multiReduction_maximumf_single v 0xFF800000#32 reduces_S256x2048_S256 (.inl rfl) rfl (ix1 p)).trans ?_
  unfold rowMax
  show (Finset.univ : Finset (Fin 2048)).fold max (Ideal.ofBits .f32 0xFF800000#32) _ = _
  rw [Cert.Attn.Consts.ofBits_neg_inf]
  congr 1
  funext k
  exact congrArg v (funext fun a => Fin.ext (by match a with | ⟨0, _⟩ => rfl | ⟨1, _⟩ => rfl))

/-- The sum over a row's 2048 lanes. -/
theorem lane_sum (v : FVec Ideal S256x2048 .f32) (p : Fin 256) :
    multiReduction .add [1] S256 v 0x00000000#32 reduces_S256x2048_S256 (.inl rfl) rfl (ix1 p)
      = ∑ k : Fin 2048, v (ix2 p k) := by
  refine (Ideal.multiReduction_add_single v 0x00000000#32 reduces_S256x2048_S256 (.inl rfl) rfl (ix1 p)).trans ?_
  refine Finset.sum_congr rfl fun k _ => ?_
  exact congrArg v (funext fun a => Fin.ext (by match a with | ⟨0, _⟩ => rfl | ⟨1, _⟩ => rfl))

/-- A column [256] viewed as [256, 1]. -/
theorem col_cast (w : FVec Ideal S256 .f32) (p : Fin 256) (u : Fin 1) :
    shapeCast S256x1 w shapeCasts_S256_S256x1 (ix2 p u) = w (ix1 p) :=
  shapeCast_apply w shapeCasts_S256_S256x1 _ _ (by
    have hu : u.val = 0 := by omega
    rw [Shape.rowMajor_val_one, Shape.rowMajor_val_two]
    show p.val = p.val * 1 + u.val
    omega)

/-- A column [256, 1] spread over 2048 lanes. -/
theorem col_bcast_2048 (cl : FVec Ideal S256x1 .f32) (p : Fin 256) (k : Fin 2048) :
    broadcastTo S256x2048 cl broadcasts_S256x1_S256x2048 (ix2 p k) = cl (ix2 p (0 : Fin 1)) := by
  refine broadcastTo_apply cl broadcasts_S256x1_S256x2048 (ix2 p k) (ix2 p (0 : Fin 1)) fun ax => ?_
  match ax with
  | ⟨0, _⟩ => rfl
  | ⟨1, _⟩ => rfl

/-- A column [256, 1] spread over 1024 lanes. -/
theorem col_bcast_1024 (cl : FVec Ideal S256x1 .f32) (p : Fin 256) (d : Fin 1024) :
    broadcastTo S256x1024 cl broadcasts_S256x1_S256x1024 (ix2 p d) = cl (ix2 p (0 : Fin 1)) := by
  refine broadcastTo_apply cl broadcasts_S256x1_S256x1024 (ix2 p d) (ix2 p (0 : Fin 1)) fun ax => ?_
  match ax with
  | ⟨0, _⟩ => rfl
  | ⟨1, _⟩ => rfl

/-! ## The four stages -/

/-- A 256-row block of the input through a linear layer (weights already transposed: `w (d, e)`). -/
def rows (x : FVec Ideal S1x256x1024 .f32) (w : FVec Ideal S1024x1024 .bf16) (b : FVec Ideal S1x1024 .f32) : FVec Ideal S256x1024 .bf16 :=
  truncf .bf16 (addf (matmul DRows none
      (truncf .bf16 (shapeCast S256x1024 x shapeCasts_S1x256x1024_S256x1024) bitsLt_bf16_f32)
      (shapeCast S1024x1024 w shapeCasts_S1024x1024_S1024x1024) (constant S256x1024 .f32 0x00000000#32))
    (broadcastTo S256x1024 (shapeCast S1x1024 b shapeCasts_S1x1024_S1x1024) broadcasts_S1x1024_S256x1024)) bitsLt_bf16_f32

theorem rows_apply (x : FVec Ideal S1x256x1024 .f32) (w : FVec Ideal S1024x1024 .bf16) (b : FVec Ideal S1x1024 .f32)
    (p : Fin 256) (e : Fin 1024) :
    rows x w b (ix2 p e) = (∑ d : Fin 1024, x (ix3 (0 : Fin 1) p d) * w (ix2 d e)) + b (ix2 (0 : Fin 1) e) := by
  unfold rows
  show matmul (F := Ideal) DRows none (truncf .bf16 (shapeCast S256x1024 x shapeCasts_S1x256x1024_S256x1024) bitsLt_bf16_f32) (shapeCast S1024x1024 w shapeCasts_S1024x1024_S1024x1024) (constant S256x1024 .f32 0x00000000#32) (ix2 p e) + broadcastTo S256x1024 (shapeCast S1x1024 b shapeCasts_S1x1024_S1x1024) broadcasts_S1x1024_S256x1024 (ix2 p e) = _
  refine congrArg₂ (· + ·) ?_ ?_
  · refine (mm_rows _ _ p e).trans (Finset.sum_congr rfl fun d _ => ?_)
    exact congrArg₂ (· * ·) (shapeCast_1ab_ab_apply x shapeCasts_S1x256x1024_S256x1024 p d)
      (congrFun (shapeCast_self w shapeCasts_S1024x1024_S1024x1024) (ix2 d e))
  · exact (broadcastTo_1b_ab_apply _ broadcasts_S1x1024_S256x1024 p e).trans
      (congrFun (shapeCast_self b shapeCasts_S1x1024_S1x1024) (ix2 (0 : Fin 1) e))

/-- The scaled scores of a block of query rows against the key buffer. -/
def sc (Q : FVec Ideal S256x1024 .bf16) (Ks : FVec Ideal S2048x1024 .bf16) : FVec Ideal S256x2048 .f32 :=
  mulf (matmul DSc none Q Ks (constant S256x2048 .f32 0x00000000#32))
    (broadcast S256x2048 (Scalar.ofBits .f32 0x3D000000#32))

theorem sc_apply (Q : FVec Ideal S256x1024 .bf16) (Ks : FVec Ideal S2048x1024 .bf16) (p : Fin 256) (k : Fin 2048) :
    sc Q Ks (ix2 p k) = scores (fun e : Fin 1024 => Q (ix2 p e)) (fun (k : Fin 2048) (e : Fin 1024) => Ks (ix2 k e)) c32 k := by
  unfold sc scores
  show matmul (F := Ideal) DSc none Q Ks (constant S256x2048 .f32 0x00000000#32) (ix2 p k) * Ideal.ofBits .f32 0x3D000000#32 = _
  exact congrArg₂ (· * ·) (mm_scores Q Ks p k) Cert.Attn.Consts.ofBits_inv32

/-- The unnormalised softmax weights of a block of score rows. -/
def weights (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

theorem weights_apply (s : FVec Ideal S256x2048 .f32) (p : Fin 256) (k : Fin 2048) :
    weights s (ix2 p k) = pexp (fun k' : Fin 2048 => s (ix2 p k')) k := by
  unfold weights pexp
  show Ideal.exp (s (ix2 p k) - broadcastTo S256x2048 (shapeCast S256x1 (multiReduction .maximumf [1] S256 s 0xFF800000#32 reduces_S256x2048_S256 (.inl rfl) rfl) shapeCasts_S256_S256x1) broadcasts_S256x1_S256x2048 (ix2 p k)) = _
  refine congrArg (fun z => Ideal.exp (s (ix2 p k) - z)) ?_
  exact (col_bcast_2048 _ p k).trans ((col_cast _ p 0).trans (lane_max s p))

/-- The weighted values, divided by the weights' sum. -/
def outv (P : FVec Ideal S256x2048 .f32) (Vs : FVec Ideal S2048x1024 .bf16) : FVec Ideal S256x1024 .f32 :=
  divf (matmul DVal none (truncf .bf16 P bitsLt_bf16_f32) Vs (constant S256x1024 .f32 0x00000000#32))
    (broadcastTo S256x1024 (shapeCast S256x1
      (multiReduction .add [1] S256 P 0x00000000#32 reduces_S256x2048_S256 (.inl rfl) rfl) shapeCasts_S256_S256x1)
      broadcasts_S256x1_S256x1024)

theorem outv_apply (P : FVec Ideal S256x2048 .f32) (Vs : FVec Ideal S2048x1024 .bf16) (p : Fin 256) (d : Fin 1024) :
    outv P Vs (ix2 p d) = Ideal.div (∑ k : Fin 2048, P (ix2 p k) * Vs (ix2 k d)) (∑ k : Fin 2048, P (ix2 p k)) := by
  unfold outv
  show Ideal.div (matmul (F := Ideal) DVal none (truncf .bf16 P bitsLt_bf16_f32) Vs (constant S256x1024 .f32 0x00000000#32) (ix2 p d)) (broadcastTo S256x1024 (shapeCast S256x1 (multiReduction .add [1] S256 P 0x00000000#32 reduces_S256x2048_S256 (.inl rfl) rfl) shapeCasts_S256_S256x1) broadcasts_S256x1_S256x1024 (ix2 p d)) = _
  refine congrArg₂ Ideal.div ?_ ?_
  · exact mm_values _ Vs p d
  · exact (col_bcast_1024 _ p d).trans ((col_cast _ p 0).trans (lane_sum P p))

/-! ## The printed payloads are these stages -/

/-- The output store's payload: the four stages composed, with a leading unit axis added. -/
theorem pay_out (xq : Vec Ideal S1x256x1024 .f32) (wq : Vec Ideal S1024x1024 .bf16) (bq : Vec Ideal S1x1024 .f32)
    (Ks Vs : Vec Ideal S2048x1024 .bf16) :
    k0_pay1 (k0_pay32 xq wq bq Ks Vs)
      = shapeCast S1x256x1024 (outv (weights (sc (rows xq wq bq) Ks)) Vs) shapeCasts_S256x1024_S1x256x1024 := rfl

/-- One tile of the output, entry by entry: the kernel's arrangement of attention for row `p` of the tile. -/
theorem tile_apply (xq : Vec Ideal S1x256x1024 .f32) (wq : Vec Ideal S1024x1024 .bf16) (bq : Vec Ideal S1x1024 .f32)
    (Ks Vs : Vec Ideal S2048x1024 .bf16) (u : Fin 1) (p : Fin 256) (d : Fin 1024) :
    k0_pay1 (k0_pay32 xq wq bq Ks Vs) (ix3 u p d)
      = outK (scores (fun e : Fin 1024 => (∑ dd : Fin 1024, xq (ix3 (0 : Fin 1) p dd) * wq (ix2 dd e)) + bq (ix2 (0 : Fin 1) e))
          (fun (k : Fin 2048) (e : Fin 1024) => Ks (ix2 k e)) c32)
        (fun (k : Fin 2048) (dd : Fin 1024) => Vs (ix2 k dd)) d := by
  rw [pay_out]
  refine (shapeCast_ab_1ab_apply _ shapeCasts_S256x1024_S1x256x1024 u p d).trans ?_
  rw [outv_apply]
  unfold outK
  have hw : ∀ k : Fin 2048, weights (sc (rows xq wq bq) Ks) (ix2 p k)
      = pexp (scores (fun e : Fin 1024 => (∑ dd : Fin 1024, xq (ix3 (0 : Fin 1) p dd) * wq (ix2 dd e)) + bq (ix2 (0 : Fin 1) e))
          (fun (k : Fin 2048) (e : Fin 1024) => Ks (ix2 k e)) c32) k := by
    intro k
    rw [weights_apply]
    congr 1
    funext k'
    rw [sc_apply]
    congr 1
    funext e
    exact rows_apply xq wq bq p e
  simp only [hw]

end Cert.Attn.Tile

end
-- ==== Proof.Pieces.lean ====
/-
  What one grid point leaves behind, as functions of what it found.

  At the first q-tile of a batch the body fills the two carried buffers in eight chunks of 256 rows: chunk `o` holds
  rows `o … o+255` of `x · W + bias` for the key (resp. value) weights. Whatever the order and the printed names of the
  eight stores, the buffer read back is ONE function of its index (`proj`):
      (k, e) ↦ ∑ d, x (0, k, d) · W (d, e) + bias (0, e).
  At every q-tile the body then computes the 256-row output tile from rows `256·q … 256·q+255` of `x`, the query
  weights, and the two buffers — freshly filled at the first q-tile, carried from the point before otherwise. Both
  cases leave the same function of (x rows, query weights, key buffer, value buffer): `tile`.
-/
import proofs.«128376_j70617852281155_2_alg».proof.Proof.Gen.KernelIdeal.Frame
import proofs.«128376_j70617852281155_2_alg».proof.Proof.Tile
import Idealize.ShloMosaic.Lib.Pipeline.Value
import Idealize.ShloMosaic.Lib.Tactic

set_option maxRecDepth 16384
set_option maxHeartbeats 1000000

noncomputable section

open scoped BigOperators

namespace Cert.Attn.Pieces

open Idealize.ShloMosaic Idealize.ShloMosaic.TcCoe Idealize.ShloMosaic.Tactic Idealize.SL.Sem Idealize.ShloMosaic.ValueIdx
open Cert.KernelIdeal Cert.KernelIdeal.Gen Cert.Attn.Spec Cert.Attn.Tile

theorem hz2 : (![0, 0] : Fin 2 → Nat) = fun _ => 0 := funext fun a => by fin_cases a <;> rfl
theorem hz3 : (![0, 0, 0] : Fin 3 → Nat) = fun _ => 0 := funext fun a => by fin_cases a <;> rfl

/-! ## One chunk of a projection -/

/-- A 256-row chunk of a projection, as the body stores it. -/
def chunk (a : FVec Ideal S1x256x1024 .f32) (w : FVec Ideal S1024x1024 .bf16) (b : FVec Ideal S1x1024 .f32) : FVec Ideal S256x1024 .bf16 :=
  shapeCast S256x1024 (rows a w b) shapeCasts_S256x1024_S256x1024

/-- The whole projection of the 2048 rows of a batch, entry by entry. -/
def proj (x0 : FVec Ideal S1x2048x1024 .f32) (w : FVec Ideal S1024x1024 .bf16) (b : FVec Ideal S1x1024 .f32) : S2048x1024.Idx → EReal :=
  fun y => (∑ d : Fin 1024, x0 (ix3 (0 : Fin 1) (y 0 : Fin 2048) d) * w (ix2 d (y 1 : Fin 1024))) + b (ix2 (0 : Fin 1) (y 1 : Fin 1024))

/-- The chunk of rows `o … o+255`, stored at row offset `o`, is the projection there. -/
theorem chunk_piece (x0 : FVec Ideal S1x2048x1024 .f32) (w : FVec Ideal S1024x1024 .bf16) (b : FVec Ideal S1x1024 .f32)
    (o : ℕ) (ho : o + 256 ≤ 2048)
    (inbS : ∀ a, (![o, 0] : Fin 2 → ℕ) a + S256x1024.size a ≤ S2048x1024.size a)
    (inbX : ∀ a, (![0, o, 0] : Fin 3 → ℕ) a + S1x256x1024.size a ≤ S1x2048x1024.size a)
    (x : S256x1024.Idx) :
    chunk (View.ld (Val := Elt Ideal) (e' := .f32) x0 (Rect.unit (s := S1x2048x1024) ![0, o, 0] S1x256x1024.size inbX)) w b x
      = proj x0 w b ((Rect.unit (s := S2048x1024) ![o, 0] S256x1024.size inbS).emb x) := by
  obtain ⟨p, e, rfl⟩ : ∃ (p : Fin 256) (e : Fin 1024), x = ix2 p e := ⟨x 0, x 1, eq_ix2 x⟩
  unfold chunk
  rw [shapeCast_self, rows_apply]
  have hemb : (Rect.unit (s := S2048x1024) ![o, 0] S256x1024.size inbS).emb (ix2 p e) = ix2 (⟨o + p.val, by omega⟩ : Fin 2048) e :=
    funext fun a => Fin.ext (by
      match a with
      | ⟨0, _⟩ => show o + 1 * p.val = o + p.val; omega
      | ⟨1, _⟩ => show 0 + 1 * e.val = e.val; omega)
  have hld : ∀ d : Fin 1024, View.ld (Val := Elt Ideal) (e' := .f32) x0 (Rect.unit (s := S1x2048x1024) ![0, o, 0] S1x256x1024.size inbX) (ix3 (0 : Fin 1) p d)
      = x0 (ix3 (0 : Fin 1) (⟨o + p.val, by omega⟩ : Fin 2048) d) := fun d =>
    congrArg x0 (funext fun a => Fin.ext (by
      match a with
      | ⟨0, _⟩ => rfl
      | ⟨1, _⟩ => show o + 1 * p.val = o + p.val; omega
      | ⟨2, _⟩ => show 0 + 1 * d.val = d.val; omega))
  rw [hemb]
  unfold proj
  simp only [hld]

/-- The eight chunk stores of one buffer, last first: chunk `o` at row offset `o`. -/
def chunkList (x0 : FVec Ideal S1x2048x1024 .f32) (w : FVec Ideal S1024x1024 .bf16) (b : FVec Ideal S1x1024 .f32) :
    List (View.Piece (Elt Ideal) S2048x1024 .bf16) :=
  [⟨Rect.unit (s := S2048x1024) ![1792, 0] S256x1024.size inb_S2048x1024_S256x1024_1792_0, chunk (View.ld (Val := Elt Ideal) (e' := .f32) x0 (Rect.unit (s := S1x2048x1024) ![0, 1792, 0] S1x256x1024.size inb_S1x2048x1024_S1x256x1024_0_1792_0)) w b⟩,
      ⟨Rect.unit (s := S2048x1024) ![1536, 0] S256x1024.size inb_S2048x1024_S256x1024_1536_0, chunk (View.ld (Val := Elt Ideal) (e' := .f32) x0 (Rect.unit (s := S1x2048x1024) ![0, 1536, 0] S1x256x1024.size inb_S1x2048x1024_S1x256x1024_0_1536_0)) w b⟩,
      ⟨Rect.unit (s := S2048x1024) ![1280, 0] S256x1024.size inb_S2048x1024_S256x1024_1280_0, chunk (View.ld (Val := Elt Ideal) (e' := .f32) x0 (Rect.unit (s := S1x2048x1024) ![0, 1280, 0] S1x256x1024.size inb_S1x2048x1024_S1x256x1024_0_1280_0)) w b⟩,
      ⟨Rect.unit (s := S2048x1024) ![1024, 0] S256x1024.size inb_S2048x1024_S256x1024_1024_0, chunk (View.ld (Val := Elt Ideal) (e' := .f32) x0 (Rect.unit (s := S1x2048x1024) ![0, 1024, 0] S1x256x1024.size inb_S1x2048x1024_S1x256x1024_0_1024_0)) w b⟩,
      ⟨Rect.unit (s := S2048x1024) ![768, 0] S256x1024.size inb_S2048x1024_S256x1024_768_0, chunk (View.ld (Val := Elt Ideal) (e' := .f32) x0 (Rect.unit (s := S1x2048x1024) ![0, 768, 0] S1x256x1024.size inb_S1x2048x1024_S1x256x1024_0_768_0)) w b⟩,
      ⟨Rect.unit (s := S2048x1024) ![512, 0] S256x1024.size inb_S2048x1024_S256x1024_512_0, chunk (View.ld (Val := Elt Ideal) (e' := .f32) x0 (Rect.unit (s := S1x2048x1024) ![0, 512, 0] S1x256x1024.size inb_S1x2048x1024_S1x256x1024_0_512_0)) w b⟩,
      ⟨Rect.unit (s := S2048x1024) ![256, 0] S256x1024.size inb_S2048x1024_S256x1024_256_0, chunk (View.ld (Val := Elt Ideal) (e' := .f32) x0 (Rect.unit (s := S1x2048x1024) ![0, 256, 0] S1x256x1024.size inb_S1x2048x1024_S1x256x1024_0_256_0)) w b⟩,
      ⟨Rect.unit (s := S2048x1024) ![0, 0] S256x1024.size inb_S2048x1024_S256x1024_0_0, chunk (View.ld (Val := Elt Ideal) (e' := .f32) x0 (Rect.unit (s := S1x2048x1024) ![0, 0, 0] S1x256x1024.size inb_S1x2048x1024_S1x256x1024_0_0_0)) w b⟩]

/-- The eight chunks tile the buffer. -/
theorem chunkList_cover (x0 : FVec Ideal S1x2048x1024 .f32) (w : FVec Ideal S1024x1024 .bf16) (b : FVec Ideal S1x1024 .f32) (y : S2048x1024.Idx) :
    ∃ p ∈ chunkList x0 w b, y ∈ p.1.set :=
  View.cover_of_tiledL (chunkList x0 w b) S256x1024.size (by sl_kernel_rfl) y

/-- The eight chunks, read back, are the projection at every index. -/
theorem canon_chunks (x0 : FVec Ideal S1x2048x1024 .f32) (w : FVec Ideal S1024x1024 .bf16) (b : FVec Ideal S1x1024 .f32) (y : S2048x1024.Idx) :
    View.canon (chunkList x0 w b) y = proj x0 w b y := by
  refine View.canon_apply_of_pieces (proj x0 w b) (chunkList x0 w b) ?_ y (chunkList_cover x0 w b y)
  intro p hp x
  unfold chunkList at hp
  simp only [List.mem_cons, List.not_mem_nil, or_false] at hp
  rcases hp with rfl | rfl | rfl | rfl | rfl | rfl | rfl | rfl
  · exact chunk_piece x0 w b 1792 (by norm_num) inb_S2048x1024_S256x1024_1792_0 inb_S1x2048x1024_S1x256x1024_0_1792_0 x
  · exact chunk_piece x0 w b 1536 (by norm_num) inb_S2048x1024_S256x1024_1536_0 inb_S1x2048x1024_S1x256x1024_0_1536_0 x
  · exact chunk_piece x0 w b 1280 (by norm_num) inb_S2048x1024_S256x1024_1280_0 inb_S1x2048x1024_S1x256x1024_0_1280_0 x
  · exact chunk_piece x0 w b 1024 (by norm_num) inb_S2048x1024_S256x1024_1024_0 inb_S1x2048x1024_S1x256x1024_0_1024_0 x
  · exact chunk_piece x0 w b 768 (by norm_num) inb_S2048x1024_S256x1024_768_0 inb_S1x2048x1024_S1x256x1024_0_768_0 x
  · exact chunk_piece x0 w b 512 (by norm_num) inb_S2048x1024_S256x1024_512_0 inb_S1x2048x1024_S1x256x1024_0_512_0 x
  · exact chunk_piece x0 w b 256 (by norm_num) inb_S2048x1024_S256x1024_256_0 inb_S1x2048x1024_S1x256x1024_0_256_0 x
  · exact chunk_piece x0 w b 0 (by norm_num) inb_S2048x1024_S256x1024_0_0 inb_S1x2048x1024_S1x256x1024_0_0_0 x

/-! ## The printed chunk payloads are `chunk` -/

theorem pay3_eq (a : Vec Ideal S1x256x1024 .f32) (w : Vec Ideal S1024x1024 .bf16) (b : Vec Ideal S1x1024 .f32) : k0_pay3 a w b = chunk a w b := rfl
theorem pay8_eq (a : Vec Ideal S1x256x1024 .f32) (w : Vec Ideal S1024x1024 .bf16) (b : Vec Ideal S1x1024 .f32) : k0_pay8 (k0_pay6 a w) (k0_pay7 b) = chunk a w b := rfl
theorem pay13_eq (a : Vec Ideal S1x256x1024 .f32) (w : Vec Ideal S1024x1024 .bf16) (b : Vec Ideal S1x1024 .f32) : k0_pay13 (k0_pay12 a w b) = chunk a w b := rfl
theorem pay16_eq (a : Vec Ideal S1x256x1024 .f32) (w : Vec Ideal S1024x1024 .bf16) (b : Vec Ideal S1x1024 .f32) : k0_pay16 a w b = chunk a w b := rfl
theorem pay19_eq (a : Vec Ideal S1x256x1024 .f32) (w : Vec Ideal S1024x1024 .bf16) (b : Vec Ideal S1x1024 .f32) : k0_pay19 a w b = chunk a w b := rfl
theorem pay23_eq (a : Vec Ideal S1x256x1024 .f32) (w : Vec Ideal S1024x1024 .bf16) (b : Vec Ideal S1x1024 .f32) : k0_pay23 (k0_pay22 a w b) = chunk a w b := rfl
theorem pay27_eq (a : Vec Ideal S1x256x1024 .f32) (w : Vec Ideal S1024x1024 .bf16) (b : Vec Ideal S1x1024 .f32) : k0_pay27 a w b = chunk a w b := rfl
theorem pay30_eq (a : Vec Ideal S1x256x1024 .f32) (w : Vec Ideal S1024x1024 .bf16) (b : Vec Ideal S1x1024 .f32) : k0_pay30 a w b = chunk a w b := rfl
theorem pay4_eq (a : Vec Ideal S1x256x1024 .f32) (w : Vec Ideal S1024x1024 .bf16) (b : Vec Ideal S1x1024 .f32) : k0_pay4 a w b = chunk a w b := rfl
theorem pay9_eq (a : Vec Ideal S1x256x1024 .f32) (w : Vec Ideal S1024x1024 .bf16) (b : Vec Ideal S1x1024 .f32) : k0_pay9 (k0_pay5 a) w b = chunk a w b := rfl
theorem pay14_eq (a : Vec Ideal S1x256x1024 .f32) (w : Vec Ideal S1024x1024 .bf16) (b : Vec Ideal S1x1024 .f32) : k0_pay14 (k0_pay11 a w b) = chunk a w b := rfl
theorem pay17_eq (a : Vec Ideal S1x256x1024 .f32) (w : Vec Ideal S1024x1024 .bf16) (b : Vec Ideal S1x1024 .f32) : k0_pay17 a w b = chunk a w b := rfl
theorem pay20_eq (a : Vec Ideal S1x256x1024 .f32) (w : Vec Ideal S1024x1024 .bf16) (b : Vec Ideal S1x1024 .f32) : k0_pay20 a w b = chunk a w b := rfl
theorem pay24_eq (a : Vec Ideal S1x256x1024 .f32) (w : Vec Ideal S1024x1024 .bf16) (b : Vec Ideal S1x1024 .f32) : k0_pay24 (k0_pay21 a) w b = chunk a w b := rfl
theorem pay28_eq (a : Vec Ideal S1x256x1024 .f32) (w : Vec Ideal S1024x1024 .bf16) (b : Vec Ideal S1x1024 .f32) : k0_pay28 (k0_pay26 a w b) = chunk a w b := rfl
theorem pay31_eq (a : Vec Ideal S1x256x1024 .f32) (w : Vec Ideal S1024x1024 .bf16) (b : Vec Ideal S1x1024 .f32) : k0_pay31 a w b = chunk a w b := rfl

/-! ## The carried buffers after the first q-tile of a batch -/

/-- The key buffer after a point that fills it: the key projection of the batch's rows. -/
theorem scratchK_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (y : S2048x1024.Idx) :
    sout0_A_0 (F := Ideal) c i arg2 harg2 arg3 harg3 arg4 harg4 arg5 harg5 arg6 harg6 arg7 harg7 arg8 harg8 arg9 harg9 arg10 harg10 arg11 harg11 hc0 x0 x1 x2 x3 x4 x5 x6 y = proj x0 x3 x4 y := by
  unfold sout0_A_0
  rw [View.read_writes_junk_apply_eq_canon]
  unfold kernelRun0_A
  dsimp only
  sl_unfold_run_names
  simp only [View.readAt_eq_ld, harg2.read_unread, harg3.read_unread, harg4.read_unread, harg5.read_unread, harg6.read_unread, harg7.read_unread, harg8.read_unread, View.ld_unit_zero (S := S1024x1024) hz2, View.ld_unit_zero (S := S1x1024) hz2, pay3_eq, pay8_eq, pay13_eq, pay16_eq, pay19_eq, pay23_eq, pay27_eq, pay30_eq, pay4_eq, pay9_eq, pay14_eq, pay17_eq, pay20_eq, pay24_eq, pay28_eq, pay31_eq]
  exact canon_chunks x0 x3 x4 y

/-- The value buffer after a point that fills it: the value projection of the batch's rows. -/
theorem scratchV_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (y : S2048x1024.Idx) :
    sout0_A_1 (F := Ideal) c i arg2 harg2 arg3 harg3 arg4 harg4 arg5 harg5 arg6 harg6 arg7 harg7 arg8 harg8 arg9 harg9 arg10 harg10 arg11 harg11 hc0 x0 x1 x2 x3 x4 x5 x6 y = proj x0 x5 x6 y := by
  unfold sout0_A_1
  rw [View.read_writes_junk_apply_eq_canon]
  unfold kernelRun0_A
  dsimp only
  sl_unfold_run_names
  simp only [View.readAt_eq_ld, harg2.read_unread, harg3.read_unread, harg4.read_unread, harg5.read_unread, harg6.read_unread, harg7.read_unread, harg8.read_unread, View.ld_unit_zero (S := S1024x1024) hz2, View.ld_unit_zero (S := S1x1024) hz2, pay3_eq, pay8_eq, pay13_eq, pay16_eq, pay19_eq, pay23_eq, pay27_eq, pay30_eq, pay4_eq, pay9_eq, pay14_eq, pay17_eq, pay20_eq, pay24_eq, pay28_eq, pay31_eq]
  exact canon_chunks x0 x5 x6 y

/-! ## The output tile -/

/-- The output tile of q-tile `q`, entry (p, d), from the batch's rows, the query weights and the two buffers. -/
def tile (x0 : FVec Ideal S1x2048x1024 .f32) (wq : FVec Ideal S1024x1024 .bf16) (bq : FVec Ideal S1x1024 .f32)
    (Ks Vs : S2048x1024.Idx → EReal) (q : Fin 8) (p : Fin 256) (d : Fin 1024) : EReal :=
  outK (scores (fun e : Fin 1024 => (∑ dd : Fin 1024, x0 (ix3 (0 : Fin 1) (⟨256 * q.val + p.val, by omega⟩ : Fin 2048) dd) * wq (ix2 dd e)) + bq (ix2 (0 : Fin 1) e))
      (fun (k : Fin 2048) (e : Fin 1024) => Ks (ix2 k e)) c32)
    (fun (k : Fin 2048) (dd : Fin 1024) => Vs (ix2 k dd)) d

/-- The tile's 256 input rows, loaded at the printed offset, are rows `256·q + p` of the batch. -/
theorem qrows_ld (x0 : FVec Ideal S1x2048x1024 .f32) (i : grid0.Coords) (p : Fin 256) (dd : Fin 1024) :
    View.ld (Val := Elt Ideal) (e' := .f32) x0 (Rect.unit (s := S1x2048x1024) (k0_off1 i) S1x256x1024.size (k0_off1_inb i)) (ix3 (0 : Fin 1) p dd)
      = x0 (ix3 (0 : Fin 1) (⟨256 * (i 1).val + p.val, by have h8 : (i 1).val < 8 := (i 1).isLt; omega⟩ : Fin 2048) dd) :=
  congrArg x0 (funext fun a => Fin.ext (by
    have he := k0_off1_eq i
    match a with
    | ⟨0, _⟩ => show k0_off1 i 0 + 1 * 0 = 0; rw [he]; rfl
    | ⟨1, _⟩ => show k0_off1 i 1 + 1 * p.val = 256 * (i 1).val + p.val; rw [he]; show 256 * (i 1).val + 1 * p.val = _; omega
    | ⟨2, _⟩ => show k0_off1 i 2 + 1 * dd.val = dd.val; rw [he]; show 0 + 1 * dd.val = _; omega))

/-- The tile from a payload over the loaded rows. -/
theorem tile_of_pay (x0 : FVec Ideal S1x2048x1024 .f32) (wq : FVec Ideal S1024x1024 .bf16) (bq : FVec Ideal S1x1024 .f32)
    (Ks Vs : FVec Ideal S2048x1024 .bf16) (i : grid0.Coords) (u : Fin 1) (p : Fin 256) (d : Fin 1024) :
    k0_pay1 (F := Ideal) (k0_pay32 (View.ld (Val := Elt Ideal) (e' := .f32) x0 (Rect.unit (s := S1x2048x1024) (k0_off1 i) S1x256x1024.size (k0_off1_inb i))) wq bq Ks Vs) (ix3 u p d)
      = tile x0 wq bq Ks Vs (i 1) p d := by
  rw [tile_apply]
  unfold tile
  refine congrArg (fun f => outK (scores f (fun (k : Fin 2048) (e : Fin 1024) => Ks (ix2 k e)) c32) (fun (k : Fin 2048) (dd : Fin 1024) => Vs (ix2 k dd)) d) (funext fun e => ?_)
  refine congrArg (· + bq (ix2 (0 : Fin 1) e)) (Finset.sum_congr rfl fun dd _ => ?_)
  exact congrArg (· * wq (ix2 dd e)) (qrows_ld x0 i p dd)

/-- A q-tile that is not the first of its batch: the tile over the buffers the point before left. -/
theorem out_B (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc0 : ¬cond0_0 i) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (xs0 xs1 : Vec Ideal S2048x1024 .bf16)
    (u : Fin 1) (p : Fin 256) (d : Fin 1024) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xs0 xs1 (ix3 u p d) = tile x0 x1 x2 xs0 xs1 (i 1) p d := by
  unfold out0_B_7
  rw [View.read_writes_junk_apply_eq_canon]
  unfold kernelRun0_B
  dsimp only
  sl_unfold_run_names
  rw [View.canon_unit_zero (S := S1x256x1024) hz3]
  simp only [View.readAt_eq_ld, harg2.read_unread, harg3.read_unread, harg4.read_unread, harg10.read_unread, harg11.read_unread,
    View.ld_unit_zero (S := S1024x1024) hz2, View.ld_unit_zero (S := S1x1024) hz2, View.ld_unit_zero (S := S2048x1024) hz2]
  exact tile_of_pay x0 x1 x2 xs0 xs1 i u p d

/-- The first q-tile of a batch: the tile over the buffers the point has just filled. -/
theorem out_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32)
    (u : Fin 1) (p : Fin 256) (d : Fin 1024) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix3 u p d) = tile x0 x1 x2 (proj x0 x3 x4) (proj x0 x5 x6) (i 1) p d := by
  unfold out0_A_7
  rw [View.read_writes_junk_apply_eq_canon]
  unfold kernelRun0_A
  dsimp only
  sl_unfold_run_names
  rw [View.canon_unit_zero (S := S1x256x1024) hz3]
  simp only [View.readCov_eq_canon', View.readAt_eq_ld, harg2.read_unread, harg3.read_unread, harg4.read_unread, harg5.read_unread, harg6.read_unread, harg7.read_unread, harg8.read_unread, View.ld_unit_zero (S := S1024x1024) hz2, View.ld_unit_zero (S := S1x1024) hz2, pay3_eq, pay8_eq, pay13_eq, pay16_eq, pay19_eq, pay23_eq, pay27_eq, pay30_eq, pay4_eq, pay9_eq, pay14_eq, pay17_eq, pay20_eq, pay24_eq, pay28_eq, pay31_eq]
  refine (tile_of_pay x0 x1 x2 _ _ i u p d).trans ?_
  have hB : ∀ j : S2048x1024.Idx, (Rect.unit (s := S2048x1024) ![0, 0] S2048x1024.size inb_S2048x1024_S2048x1024_0_0).idx j = j := fun j =>
    funext fun a => Fin.ext (by
      match a with
      | ⟨0, _⟩ => show 0 + 1 * (j 0).val = (j 0).val; omega
      | ⟨1, _⟩ => show 0 + 1 * (j 1).val = (j 1).val; omega)
  refine congrArg₂ (fun a b => tile x0 x1 x2 a b (i 1) p d) (funext fun j => ?_) (funext fun j => ?_)
  · exact (canon_chunks x0 x3 x4 _).trans (congrArg (proj x0 x3 x4) (hB j))
  · exact (canon_chunks x0 x5 x6 _).trans (congrArg (proj x0 x5 x6) (hB j))

end Cert.Attn.Pieces

end
-- ==== Proof.KernelValue.lean ====
/-
  The kernel's result array, entry by entry.

  The grid is 8 batches × 8 q-tiles, q-tiles innermost: point `t` is batch `t / 8`, q-tile `t % 8`. Before the grid
  the host transposes the three weight matrices (so the region finds `Wᵀ (d, e) = W (e, d)`) and views each bias as
  one row. Window 0 stages the whole batch `t / 8` of `x`; windows 1–6 stage the weights and biases whole; window 7
  is the output tile: rows `256·(t % 8) …` of batch `t / 8`.
  The two carried buffers are filled at the first q-tile of each batch and only read afterwards, so by induction on
  the point they hold, after point `t`, the key and value projections of batch `t / 8` (`carried`). Hence every
  point writes back the attention tile of its own batch and rows (`flushed_eq`), the 64 tiles cover the array
  (`cover`), and the array ends at the kernel's arrangement of attention, `attnK`, of the argument arrays.
-/
import proofs.«128376_j70617852281155_2_alg».proof.Proof.Gen.KernelIdeal.Value
import proofs.«128376_j70617852281155_2_alg».proof.Proof.Pieces
import Idealize.ShloMosaic.Lib.ValueLayout
import Idealize.ShloMosaic.Lib.StableHlo.Run

set_option maxRecDepth 16384
set_option maxHeartbeats 1000000

noncomputable section

open scoped BigOperators

namespace Cert.Attn.KernelValue

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.KernelIdeal.Value Cert.Attn.Spec Cert.Attn.Tile Cert.Attn.Pieces
open Idealize.ShloMosaic.Pipeline (Dat)

variable (m : (ℓ : Loc nD τ sig) → Buf (Elt Ideal) ℓ) (ρ : Dev nD → PrngReg)

/-! ## The arrays the region finds -/

/-- The transposed query weights: entry (d, e) is `Wq (e, d)`. -/
theorem wqT_apply (c : Dev nD) (d e : Fin 1024) :
    (V m c main_v1 : S1024x1024.Idx → EReal) (ix2 d e) = m ((c : Thread nD τ).loc main_arg1) (ix2 e d) := by
  have h : @Eq (S1024x1024.Idx → EReal) (V m c main_v1)
      (truncf (F := Ideal) .bf16 (transpose S1024x1024 [1, 0] (m ((c : Thread nD τ).loc main_arg1)) transposes_S1024x1024_S1024x1024_1_0) bitsLt_bf16_f32) := by
    dsimp only [Gen.V, Gen.hostOps0]; after_results
  rw [h]
  exact transpose_ix2_apply (m ((c : Thread nD τ).loc main_arg1)) transposes_S1024x1024_S1024x1024_1_0 d e

/-- The transposed key weights. -/
theorem wkT_apply (c : Dev nD) (d e : Fin 1024) :
    (V m c main_v3 : S1024x1024.Idx → EReal) (ix2 d e) = m ((c : Thread nD τ).loc main_arg3) (ix2 e d) := by
  have h : @Eq (S1024x1024.Idx → EReal) (V m c main_v3)
      (truncf (F := Ideal) .bf16 (transpose S1024x1024 [1, 0] (m ((c : Thread nD τ).loc main_arg3)) transposes_S1024x1024_S1024x1024_1_0) bitsLt_bf16_f32) := by
    dsimp only [Gen.V, Gen.hostOps0]; after_results
  rw [h]
  exact transpose_ix2_apply (m ((c : Thread nD τ).loc main_arg3)) transposes_S1024x1024_S1024x1024_1_0 d e

/-- The transposed value weights. -/
theorem wvT_apply (c : Dev nD) (d e : Fin 1024) :
    (V m c main_v5 : S1024x1024.Idx → EReal) (ix2 d e) = m ((c : Thread nD τ).loc main_arg5) (ix2 e d) := by
  have h : @Eq (S1024x1024.Idx → EReal) (V m c main_v5)
      (truncf (F := Ideal) .bf16 (transpose S1024x1024 [1, 0] (m ((c : Thread nD τ).loc main_arg5)) transposes_S1024x1024_S1024x1024_1_0) bitsLt_bf16_f32) := by
    dsimp only [Gen.V, Gen.hostOps0]; after_results
  rw [h]
  exact transpose_ix2_apply (m ((c : Thread nD τ).loc main_arg5)) transposes_S1024x1024_S1024x1024_1_0 d e

/-- The query bias as one row. -/
theorem bq_apply (c : Dev nD) (u : Fin 1) (e : Fin 1024) :
    (V m c main_v6 : S1x1024.Idx → EReal) (ix2 u e) = m ((c : Thread nD τ).loc main_arg2) (ix1 e) := by
  have h : @Eq (S1x1024.Idx → EReal) (V m c main_v6)
      (shapeCast S1x1024 (m ((c : Thread nD τ).loc main_arg2)) shapeCasts_S1024_S1x1024) := by
    dsimp only [Gen.V, Gen.hostOps0]; after_results; rfl
  rw [h]
  exact shapeCast_a_1a_apply (m ((c : Thread nD τ).loc main_arg2)) shapeCasts_S1024_S1x1024 u e

/-- The key bias as one row. -/
theorem bk_apply (c : Dev nD) (u : Fin 1) (e : Fin 1024) :
    (V m c main_v7 : S1x1024.Idx → EReal) (ix2 u e) = m ((c : Thread nD τ).loc main_arg4) (ix1 e) := by
  have h : @Eq (S1x1024.Idx → EReal) (V m c main_v7)
      (shapeCast S1x1024 (m ((c : Thread nD τ).loc main_arg4)) shapeCasts_S1024_S1x1024) := by
    dsimp only [Gen.V, Gen.hostOps0]; after_results; rfl
  rw [h]
  exact shapeCast_a_1a_apply (m ((c : Thread nD τ).loc main_arg4)) shapeCasts_S1024_S1x1024 u e

/-- The value bias as one row. -/
theorem bv_apply (c : Dev nD) (u : Fin 1) (e : Fin 1024) :
    (V m c main_v8 : S1x1024.Idx → EReal) (ix2 u e) = m ((c : Thread nD τ).loc main_arg6) (ix1 e) := by
  have h : @Eq (S1x1024.Idx → EReal) (V m c main_v8)
      (shapeCast S1x1024 (m ((c : Thread nD τ).loc main_arg6)) shapeCasts_S1024_S1x1024) := by
    dsimp only [Gen.V, Gen.hostOps0]; after_results; rfl
  rw [h]
  exact shapeCast_a_1a_apply (m ((c : Thread nD τ).loc main_arg6)) shapeCasts_S1024_S1x1024 u e

/-! ## The grid: which block each window stages at each point -/

theorem hN : cfg0.N = 64 := N_0

/-- The printed index maps and coordinates, decided over the 64 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 8 ∧ win0_7.index t (1 : Fin 3) = t.val % 8 ∧ win0_7.index t (2 : Fin 3) = 0
    ∧ (grid0.coords t 1).val = t.val % 8 :=
  (by decide +kernel : ∀ t : Fin grid0.N, _)

/-- Window 0's block at point `t` is batch `t / 8` of `x`. -/
theorem xblk_apply (c : Dev nD) (t : Fin cfg0.N) (r : Fin 2048) (d : Fin 1024) :
    (iblk m c 0 t : S1x2048x1024.Idx → EReal) (ix3 (0 : Fin 1) r d)
      = m ((c : Thread nD τ).loc main_arg0) (ix3 (⟨t.val / 8, by have := lt_of_lt_of_eq t.isLt hN; omega⟩ : Fin 8) r d) := by
  rw [← V_main_arg0 m c]
  show V m c main_arg0 (((cfg0.win 0).blk t).view.emb (ix3 (0 : Fin 1) r d)) = V m c main_arg0 _
  obtain ⟨e0, e1, e2, -⟩ := idx_facts t
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 2048 + 1 * r.val = r.val; omega
  | ⟨2, _⟩ => show win0_0.index t (2 : Fin 3) * 1024 + 1 * d.val = d.val; omega

/-- Windows 1, 3, 5 stage the transposed weight matrices whole. -/
theorem wblk1_apply (c : Dev nD) (t : Fin cfg0.N) (d e : Fin 1024) :
    (iblk m c 1 t : S1024x1024.Idx → EReal) (ix2 d e) = m ((c : Thread nD τ).loc main_arg1) (ix2 e d) := by
  rw [← wqT_apply m c d e]
  show V m c main_v1 (((cfg0.win 1).blk t).view.emb (ix2 d e)) = V m c main_v1 _
  obtain ⟨-, -, -, e0, e1, -⟩ := idx_facts t
  refine congrArg (V m c main_v1) (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

theorem wblk3_apply (c : Dev nD) (t : Fin cfg0.N) (d e : Fin 1024) :
    (iblk m c 3 t : S1024x1024.Idx → EReal) (ix2 d e) = m ((c : Thread nD τ).loc main_arg3) (ix2 e d) := by
  rw [← wkT_apply m c d e]
  show V m c main_v3 (((cfg0.win 3).blk t).view.emb (ix2 d e)) = V m c main_v3 _
  obtain ⟨-, -, -, -, -, -, -, e0, e1, -⟩ := idx_facts t
  refine congrArg (V m c main_v3) (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

theorem wblk5_apply (c : Dev nD) (t : Fin cfg0.N) (d e : Fin 1024) :
    (iblk m c 5 t : S1024x1024.Idx → EReal) (ix2 d e) = m ((c : Thread nD τ).loc main_arg5) (ix2 e d) := by
  rw [← wvT_apply m c d e]
  show V m c main_v5 (((cfg0.win 5).blk t).view.emb (ix2 d e)) = V m c main_v5 _
  obtain ⟨-, -, -, -, -, -, -, -, -, -, -, e0, e1, -⟩ := idx_facts t
  refine congrArg (V m c main_v5) (funext fun a => Fin.ext ?_)
  match a with
  | ⟨0, _⟩ => show win0_5.index t (0 : Fin 2) * 1024 + 1 * d.val = d.val; omega
  | ⟨1, _⟩ => show win0_5.index t (1 : Fin 2) * 1024 + 1 * e.val = e.val; omega

/-- Windows 2, 4, 6 stage the bias rows whole. -/
theorem bblk2_apply (c : Dev nD) (t : Fin cfg0.N) (e : Fin 1024) :
    (iblk m c 2 t : S1x1024.Idx → EReal) (ix2 (0 : Fin 1) e) = m ((c : Thread nD τ).loc main_arg2) (ix1 e) := by
  rw [← bq_apply m c 0 e]
  show V m c main_v6 (((cfg0.win 2).blk t).view.emb (ix2 (0 : Fin 1) e)) = V m c main_v6 _
  obtain ⟨-, -, -, -, -, e0, e1, -⟩ := idx_facts t
  refine congrArg (V m c main_v6) (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

theorem bblk4_apply (c : Dev nD) (t : Fin cfg0.N) (e : Fin 1024) :
    (iblk m c 4 t : S1x1024.Idx → EReal) (ix2 (0 : Fin 1) e) = m ((c : Thread nD τ).loc main_arg4) (ix1 e) := by
  rw [← bk_apply m c 0 e]
  show V m c main_v7 (((cfg0.win 4).blk t).view.emb (ix2 (0 : Fin 1) e)) = V m c main_v7 _
  obtain ⟨-, -, -, -, -, -, -, -, -, e0, e1, -⟩ := idx_facts t
  refine congrArg (V m c main_v7) (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega

theorem bblk6_apply (c : Dev nD) (t : Fin cfg0.N) (e : Fin 1024) :
    (iblk m c 6 t : S1x1024.Idx → EReal) (ix2 (0 : Fin 1) e) = m ((c : Thread nD τ).loc main_arg6) (ix1 e) := by
  rw [← bv_apply m c 0 e]
  show V m c main_v8 (((cfg0.win 6).blk t).view.emb (ix2 (0 : Fin 1) e)) = V m c main_v8 _
  obtain ⟨-, -, -, -, -, -, -, -, -, -, -, -, -, e0, e1, -⟩ := idx_facts t
  refine congrArg (V m c main_v8) (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-! ## The carried buffers -/

/-- The argument arrays, as the specification takes them. -/
abbrev aX (c : Dev nD) : IX → EReal := m ((c : Thread nD τ).loc main_arg0)
abbrev aWq (c : Dev nD) : IW → EReal := m ((c : Thread nD τ).loc main_arg1)
abbrev aBq (c : Dev nD) : IB → EReal := m ((c : Thread nD τ).loc main_arg2)
abbrev aWk (c : Dev nD) : IW → EReal := m ((c : Thread nD τ).loc main_arg3)
abbrev aBk (c : Dev nD) : IB → EReal := m ((c : Thread nD τ).loc main_arg4)
abbrev aWv (c : Dev nD) : IW → EReal := m ((c : Thread nD τ).loc main_arg5)
abbrev aBv (c : Dev nD) : IB → EReal := m ((c : Thread nD τ).loc main_arg6)

/-- The key (resp. value) rows of batch `bb`, as a [2048, 1024] buffer. -/
def keyBuf (c : Dev nD) (bb : Fin 8) : S2048x1024.Idx → EReal :=
  fun y => lin (wmat (aWk m c)) (bvec (aBk m c)) (xrow (aX m c) bb (y 0 : Fin 2048)) (y 1 : Fin 1024)
def valBuf (c : Dev nD) (bb : Fin 8) : S2048x1024.Idx → EReal :=
  fun y => lin (wmat (aWv m c)) (bvec (aBv m c)) (xrow (aX m c) bb (y 0 : Fin 2048)) (y 1 : Fin 1024)

theorem batch_lt (t : Fin cfg0.N) : t.val / 8 < 8 := by have := lt_of_lt_of_eq t.isLt hN; omega

/-- The key projection of point `t`'s blocks is the key buffer of batch `t / 8`. -/
theorem proj_key (c : Dev nD) (t : Fin cfg0.N) :
    proj (iblk m c 0 t) (iblk m c 3 t) (iblk m c 4 t) = keyBuf m c ⟨t.val / 8, batch_lt t⟩ := by
  funext y
  unfold proj keyBuf lin
  refine congrArg₂ (· + ·) (Finset.sum_congr rfl fun d _ => ?_) ?_
  · exact congrArg₂ (· * ·) (xblk_apply m c t (y 0) d) (wblk3_apply m c t d (y 1))
  · exact bblk4_apply m c t (y 1)

/-- The value projection of point `t`'s blocks is the value buffer of batch `t / 8`. -/
theorem proj_val (c : Dev nD) (t : Fin cfg0.N) :
    proj (iblk m c 0 t) (iblk m c 5 t) (iblk m c 6 t) = valBuf m c ⟨t.val / 8, batch_lt t⟩ := by
  funext y
  unfold proj valBuf lin
  refine congrArg₂ (· + ·) (Finset.sum_congr rfl fun d _ => ?_) ?_
  · exact congrArg₂ (· * ·) (xblk_apply m c t (y 0) d) (wblk5_apply m c t d (y 1))
  · exact bblk6_apply m c t (y 1)

/-- THE INVARIANT. After point `n` the two carried buffers hold the key and value rows of batch `n / 8`: filled
    at the batch's first q-tile, untouched at its other seven. -/
theorem carried (c : Dev nD) : ∀ (n : ℕ) (hn : n < cfg0.N),
    (outsAt0 m c n hn).2.1 = keyBuf m c ⟨n / 8, batch_lt ⟨n, hn⟩⟩ ∧ (outsAt0 m c n hn).2.2 = valBuf m c ⟨n / 8, batch_lt ⟨n, hn⟩⟩ := by
  intro n
  induction n with
  | zero =>
    intro hn
    rw [outsAt0_A m c ⟨0, hn⟩ rfl]
    dsimp only
    exact ⟨(funext fun y => scratchK_A _ _ _ _ _ _ _ _ _ _ _ _ _ _ _ _ _ _ _ _ _ _ _ _ _ _ _ _ _ _ y).trans (proj_key m c ⟨0, hn⟩),
      (funext fun y => scratchV_A _ _ _ _ _ _ _ _ _ _ _ _ _ _ _ _ _ _ _ _ _ _ _ _ _ _ _ _ _ _ y).trans (proj_val m c ⟨0, hn⟩)⟩
  | succ n ih =>
    intro hn
    by_cases h0 : (n + 1) % 8 = 0
    · rw [outsAt0_A m c ⟨n + 1, hn⟩ h0]
      dsimp only
      exact ⟨(funext fun y => scratchK_A _ _ _ _ _ _ _ _ _ _ _ _ _ _ _ _ _ _ _ _ _ _ _ _ _ _ _ _ _ _ y).trans (proj_key m c ⟨n + 1, hn⟩),
        (funext fun y => scratchV_A _ _ _ _ _ _ _ _ _ _ _ _ _ _ _ _ _ _ _ _ _ _ _ _ _ _ _ _ _ _ y).trans (proj_val m c ⟨n + 1, hn⟩)⟩
    · rw [outsAt0_B m c ⟨n + 1, hn⟩ h0]
      dsimp only
      unfold sout0_B_0 sout0_B_1
      have hb : (n + 1) / 8 = n / 8 := by omega
      have ih' := ih (Nat.lt_of_succ_lt hn)
      refine ⟨ih'.1.trans ?_, ih'.2.trans ?_⟩
      · exact congrArg (keyBuf m c) (Fin.ext hb.symm)
      · exact congrArg (valBuf m c) (Fin.ext hb.symm)

/-! ## What each point writes back -/

/-- The result: the kernel's arrangement of attention of the argument arrays. -/
def result (c : Dev nD) : Buf (Elt Ideal) ((c : Thread nD τ).loc main_v9) :=
  fun i => attnK (aX m c) (aWq m c) (aBq m c) (aWk m c) (aBk m c) (aWv m c) (aBv m c) (i 0 : Fin 8) (i 1 : Fin 2048) (i 2 : Fin 1024)

/-- The tile of point `t` over its batch's buffers is the specification at batch `t / 8`, row `256·q + p`. -/
theorem tile_eq (c : Dev nD) (t : Fin cfg0.N) (q : Fin 8) (p : Fin 256) (d : Fin 1024) :
    tile (iblk m c 0 t) (iblk m c 1 t) (iblk m c 2 t) (keyBuf m c ⟨t.val / 8, batch_lt t⟩) (valBuf m c ⟨t.val / 8, batch_lt t⟩) q p d
      = attnK (aX m c) (aWq m c) (aBq m c) (aWk m c) (aBk m c) (aWv m c) (aBv m c) ⟨t.val / 8, batch_lt t⟩
          (⟨256 * q.val + p.val, by omega⟩ : Fin 2048) d := by
  unfold tile attnK attnScores attnValues
  refine congrArg (fun f => outK (scores f _ c32) _ d) (funext fun e => ?_)
  unfold lin
  refine congrArg₂ (· + ·) (Finset.sum_congr rfl fun dd _ => ?_) ?_
  · exact congrArg₂ (· * ·) (xblk_apply m c t _ dd) (wblk1_apply m c t dd e)
  · exact bblk2_apply m c t e

/-- WHAT POINT `t` WRITES BACK is its block of `result`. -/
theorem flushed_eq (c : Dev nD) (t : Fin cfg0.N) :
    (dats m 0 c).flushed 7 t = ((cfg0.win 7).blk t).view.read (Elt Ideal) (result m c) := by
  rw [flushed7]
  obtain ⟨-, -, -, -, -, -, -, -, -, -, -, -, -, -, -, e0, e1, e2, eq⟩ := idx_facts t
  have hlt : t.val < 64 := lt_of_lt_of_eq t.isLt hN
  funext j
  obtain ⟨u, p, d, rfl⟩ : ∃ (u : Fin 1) (p : Fin 256) (d : Fin 1024), j = ix3 u p d := ⟨j 0, j 1, j 2, eq_ix3 j⟩
  show (outsAt0 m c t.val t.isLt).1 (ix3 u p d) = result m c (((cfg0.win 7).blk t).view.emb (ix3 u p d))
  have hu : u.val = 0 := by omega
  have hemb : ((cfg0.win 7).blk t).view.emb (ix3 u p d)
      = ix3 (⟨t.val / 8, batch_lt t⟩ : Fin 8) (⟨256 * (grid0.coords t 1).val + p.val, by omega⟩ : Fin 2048) d :=
    funext fun a => Fin.ext (by
      match a with
      | ⟨0, _⟩ => show win0_7.index t (0 : Fin 3) * 1 + 1 * u.val = t.val / 8; omega
      | ⟨1, _⟩ => show win0_7.index t (1 : Fin 3) * 256 + 1 * p.val = 256 * (grid0.coords t 1).val + p.val; omega
      | ⟨2, _⟩ => show win0_7.index t (2 : Fin 3) * 1024 + 1 * d.val = d.val; omega)
  rw [hemb]
  unfold result
  show _ = attnK _ _ _ _ _ _ _ (⟨t.val / 8, batch_lt t⟩ : Fin 8) (⟨256 * (grid0.coords t 1).val + p.val, by omega⟩ : Fin 2048) d
  by_cases h0 : t.val % 8 = 0
  · rw [outsAt0_A m c t h0]
    dsimp only
    rw [out_A, proj_key, proj_val]
    exact tile_eq m c t (grid0.coords t 1) p d
  · rw [outsAt0_B m c t h0]
    dsimp only
    rw [out_B]
    have hpos : 0 < t.val := by omega
    have hc := carried m c (t.val - 1) (Nat.lt_of_le_of_lt (Nat.sub_le _ _) t.isLt)
    have hb : (t.val - 1) / 8 = t.val / 8 := by omega
    rw [hc.1, hc.2]
    have hk : keyBuf m c ⟨(t.val - 1) / 8, batch_lt ⟨t.val - 1, Nat.lt_of_le_of_lt (Nat.sub_le _ _) t.isLt⟩⟩ = keyBuf m c ⟨t.val / 8, batch_lt t⟩ :=
      congrArg (keyBuf m c) (Fin.ext hb)
    have hv : valBuf m c ⟨(t.val - 1) / 8, batch_lt ⟨t.val - 1, Nat.lt_of_le_of_lt (Nat.sub_le _ _) t.isLt⟩⟩ = valBuf m c ⟨t.val / 8, batch_lt t⟩ :=
      congrArg (valBuf m c) (Fin.ext hb)
    rw [hk, hv]
    exact tile_eq m c t (grid0.coords t 1) p d

/-! ## The cover, the array, the run -/

/-- An index of the array is in point `t`'s block iff each coordinate is in the block's range. -/
theorem mem_blk (t : Fin cfg0.N) (i : S8x2048x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v9).slice (win0_7.rect t)).set ↔ _
  rw [View.set_slice_whole, Rect.mem_set_unit]
  exact Iff.rfl

/-- Every index is in the block of the point of its batch and q-tile. -/
theorem cover (i : S8x2048x1024.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  let t : Fin cfg0.N := ⟨(i 0).val * 8 + (i 1).val / 256, by rw [hN]; omega⟩
  have ht : t.val = (i 0).val * 8 + (i 1).val / 256 := rfl
  obtain ⟨-, -, -, -, -, -, -, -, -, -, -, -, -, -, -, e0, e1, e2, -⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- The result array after the run. -/
theorem final (c : Dev nD) : (dats m 0 c).arrAt 7 cfg0.N = result m c :=
  (dats m 0 c).arrAt_eq_of_cover 7 (result m c) (fun t _ => flushed_eq m c t) cover

/-- The run, read: the result array at the kernel's arrangement of attention, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Attn.KernelValue

end
-- ==== Proof.Finite.lean ====
/-
  The precondition, read back: every entry of every input is a real number.

  The precondition is the conjunction, over the seven inputs `a`, of `all (|a| < +∞)`. A conjunction of bits is 1 only
  if each is; an `all` that is 1 had a 1 at every index; and `max a (−a) < ⊤` on the extended reals says `a` is
  neither ⊤ nor ⊥, that is, a real.
-/
import proofs.«128376_j70617852281155_2_alg».proof.Pre_finite_inputs
import proofs.«128376_j70617852281155_2_alg».proof.Proof.Gen.Pre_finite_inputs
import Idealize.ShloMosaic.PureOps.Ideal
import Idealize.ShloMosaic.Lib.ReduceAll
import Idealize.ShloMosaic.Lib.ValueIdx

noncomputable section

namespace Cert.Attn.Finite

open Idealize.ShloMosaic Idealize.ShloMosaic.ValueIdx

instance : Subsingleton (⟨0, ![]⟩ : Shape).Idx := ⟨fun a b => funext fun d => d.elim0⟩

/-- The bit pattern of `+inf` denotes ⊤. -/
theorem ofBits_inf : Ideal.ofBits .f32 0x7F800000#32 = ⊤ := by
  simp [Ideal.ofBits, Ideal.ieee]

/-- An extended real whose absolute value is below ⊤ is a real. -/
theorem real_of_abs_lt_top (x : EReal) (h : max x (-x) < ⊤) : ∃ r : ℝ, x = (r : EReal) := by
  induction x using EReal.rec with
  | bot => simp at h
  | top => simp at h
  | coe r => exact ⟨r, rfl⟩

/-- One input: if `all (|x| < +inf)` is 1 then every entry of `x` is a real. -/
theorem all_finite {s : Shape} {axes : List (Fin s.rank)} (x : FVec Ideal s .f32)
    (bc : (⟨0, ![]⟩ : Shape).BroadcastsInDim s (![] : Fin 0 → Fin s.rank)) (h : s.ReducesTo axes ⟨0, ![]⟩) (hu : 0 < (⟨0, ![]⟩ : Shape).numel)
    (e : Host.reduce IntOp.andi (cmpf .olt (Host.absf x) (broadcastInDim s ![] bc (constant (F := Ideal) ⟨0, ![]⟩ .f32 0x7F800000#32)))
      (constantI ⟨0, ![]⟩ 1 1#1) h hu ix0 = 1#1) (i : s.Idx) : ∃ r : ℝ, x i = (r : EReal) := by
  have hi := Host.reduce_andi_all _ _ h hu ix0 e i
  have hi' : Ideal.cmp .olt (max (x i) (-(x i))) (Ideal.ofBits .f32 0x7F800000#32) = 1#1 := hi
  rw [ofBits_inf] at hi'
  refine real_of_abs_lt_top (x i) ?_
  unfold Ideal.cmp at hi'
  by_contra hne
  simp [hne] at hi'

/-- The seven inputs of the precondition are real-valued. -/
theorem of_pre (a0 : FVec Ideal Cert.Pre_finite_inputs.S8x2048x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024x1024 .f32)
    (a6 : FVec Ideal Cert.Pre_finite_inputs.S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_finite a0 _ _ _ e0, all_finite a1 _ _ _ e1, all_finite a2 _ _ _ e2, all_finite a3 _ _ _ e3,
    all_finite a4 _ _ _ e4, all_finite a5 _ _ _ e5, all_finite a6 _ _ _ e6⟩

end Cert.Attn.Finite

end
-- ==== Proof.lean ====
/-
  Fused single-head attention against its plain formulation: the two programs compute the same function on the
  extended reals, for finite inputs.

  Both compute, for every batch b, query row r and feature d,
      q = x·Wqᵀ + bq,  k = x·Wkᵀ + bk,  v = x·Wvᵀ + bv,
      s_k = (q_r · k_k) · c,   p_k = exp (s_k − max_k s_k),   out (b, r, d) = Σ_k softmax-weight_k · v (b, k, d).
  They differ in three places, and each is an equality at this instance:
    • the scale: the kernel multiplies by the literal 2⁻⁵, the reference by 1 / √1024; 1024 = 32², so both are 1/32;
    • the maximum: the reference takes one more max with −∞, which changes nothing;
    • the normalisation: the kernel divides the weighted sum by L = Σ_k p_k, the reference divides each weight by L
      before summing. For finite inputs every score and value is a real, each p_k is a positive real, L is a positive
      real, and (Σ_k p_k·v_k) / L = Σ_k (p_k / L)·v_k in ℝ. This is where the precondition is used.
  The kernel walks a grid of 8 batches × 8 row tiles and keeps the batch's key and value rows in two buffers filled at
  the batch's first tile; that the buffers hold the right batch at every tile is an induction on the grid point.
  The frames of the two kernel programs are the generated ones; the reference's frame is its generated run with the
  result dropped; the idealization rewrote nothing.
-/
import proofs.«128376_j70617852281155_2_alg».proof.Defs
import proofs.«128376_j70617852281155_2_alg».proof.Proof.Gen.Kernel
import proofs.«128376_j70617852281155_2_alg».proof.Proof.Gen.Kernel.Skeleton
import proofs.«128376_j70617852281155_2_alg».proof.Proof.Gen.Kernel.Launch
import proofs.«128376_j70617852281155_2_alg».proof.Proof.Gen.Kernel.Points
import proofs.«128376_j70617852281155_2_alg».proof.Proof.Gen.Kernel.Frame
import proofs.«128376_j70617852281155_2_alg».proof.Proof.Gen.KernelIdeal
import proofs.«128376_j70617852281155_2_alg».proof.Proof.Gen.KernelIdeal.Skeleton
import proofs.«128376_j70617852281155_2_alg».proof.Proof.Gen.KernelIdeal.Launch
import proofs.«128376_j70617852281155_2_alg».proof.Proof.Gen.KernelIdeal.Points
import proofs.«128376_j70617852281155_2_alg».proof.Proof.Gen.KernelIdeal.Frame
import proofs.«128376_j70617852281155_2_alg».proof.Proof.Gen.ReferenceIdeal
import proofs.«128376_j70617852281155_2_alg».proof.Proof.Gen.Pre_finite_inputs
import proofs.«128376_j70617852281155_2_alg».proof.Proof.Gen.KernelIdeal.Value
import proofs.«128376_j70617852281155_2_alg».proof.Proof.Gen.ReferenceIdeal.Run
import proofs.«128376_j70617852281155_2_alg».proof.Proof.Gen.ReferenceIdeal.Read
import proofs.«128376_j70617852281155_2_alg».proof.Proof.Spec
import proofs.«128376_j70617852281155_2_alg».proof.Proof.RefValue
import proofs.«128376_j70617852281155_2_alg».proof.Proof.KernelValue
import proofs.«128376_j70617852281155_2_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- For real inputs the two arrangements of attention are one function of the argument arrays. -/
theorem arrangements_agree (x : Cert.Attn.Spec.IX → EReal) (wq : Cert.Attn.Spec.IW → EReal) (bq : Cert.Attn.Spec.IB → EReal)
    (wk : Cert.Attn.Spec.IW → EReal) (bk : Cert.Attn.Spec.IB → EReal) (wv : Cert.Attn.Spec.IW → EReal) (bv : Cert.Attn.Spec.IB → EReal)
    (f0 : ∀ i, ∃ r : ℝ, x i = (r : EReal)) (f1 : ∀ i, ∃ r : ℝ, wq i = (r : EReal)) (f2 : ∀ i, ∃ r : ℝ, bq i = (r : EReal))
    (f3 : ∀ i, ∃ r : ℝ, wk i = (r : EReal)) (f4 : ∀ i, ∃ r : ℝ, bk i = (r : EReal)) (f5 : ∀ i, ∃ r : ℝ, wv i = (r : EReal))
    (f6 : ∀ i, ∃ r : ℝ, bv i = (r : EReal)) (b : Fin 8) (r : Fin 2048) (d : Fin 1024) :
    Cert.Attn.Spec.attnR x wq bq wk bk wv bv b r d = Cert.Attn.Spec.attnK x wq bq wk bk wv bv b r d := by
  choose x' hx using f0
  choose wq' hwq using f1
  choose bq' hbq using f2
  choose wk' hwk using f3
  choose bk' hbk using f4
  choose wv' hwv using f5
  choose bv' hbv using f6
  obtain rfl : x = fun i => (x' i : EReal) := funext hx
  obtain rfl : wq = fun i => (wq' i : EReal) := funext hwq
  obtain rfl : bq = fun i => (bq' i : EReal) := funext hbq
  obtain rfl : wk = fun i => (wk' i : EReal) := funext hwk
  obtain rfl : bk = fun i => (bk' i : EReal) := funext hbk
  obtain rfl : wv = fun i => (wv' i : EReal) := funext hwv
  obtain rfl : bv = fun i => (bv' i : EReal) := funext hbv
  exact Cert.Attn.Spec.attnR_eq_attnK x' wq' bq' wk' bk' wv' bv' b r d

/-- Both runs end with the result array at the attention of the argument arrays: the kernel's in its own arrangement,
    the reference's in the other, equal because the inputs are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.KernelValue.result m c, Cert.Attn.KernelValue.run m ρ, ?_⟩
  refine (θ_run Cert.ReferenceIdeal.defs _ _).mono (fun _ h c => ⟨(h c).1.trans ((Cert.Attn.RefValue.res_eq m' c).trans ?_), (h c).2⟩)
    (Cert.ReferenceIdeal.Value.run (F := Ideal) m' ρ')
  obtain ⟨g0, g1, g2, g3, g4, g5, g6⟩ := hagree c
  obtain ⟨f0, f1, f2, f3, f4, f5, f6⟩ := Cert.Attn.Finite.of_pre _ _ _ _ _ _ _ (hpre c)
  rw [g0, g1, g2, g3, g4, g5, g6]
  funext i
  exact arrangements_agree _ _ _ _ _ _ _ f0 f1 f2 f3 f4 f5 f6 _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
